-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1024 : Shape := ⟨3, ![32, 4096, 1024]⟩
abbrev S_ : Shape := ⟨0, ![]⟩

class Facts : Prop where
  bcast_S_S32x4096x1024 : S_.BroadcastsInDim S32x4096x1024 (![] : Fin 0 → Fin S32x4096x1024.rank)
  reducesTo_S32x4096x1024_S_d0_1_2 : S32x4096x1024.ReducesTo [0, 1, 2] S_
  h_S_ : 0 < S_.numel

variable [Facts]

def fn {F : FTy → Type} [FloatOps F] (main_arg0 : FVec F S32x4096x1024 .f32) : IVec S_ 1 :=
  let main_v0 : FVec F S32x4096x1024 .f32 := Host.absf main_arg0
  let main_cst : FVec F S_ .f32 := constant S_ .f32 0x7F800000#32
  let main_v1 : FVec F S32x4096x1024 .f32 := broadcastInDim S32x4096x1024 ![] bcast_S_S32x4096x1024 main_cst
  let main_v2 : IVec S32x4096x1024 1 := cmpf .olt main_v0 main_v1
  let main_c : IVec S_ 1 := constantI S_ 1 1#1
  let main_v3 : IVec S_ 1 := (fun x v => Host.reduce IntOp.andi x v reducesTo_S32x4096x1024_S_d0_1_2 h_S_) main_v2 main_c
  main_v3
-- ==== Kernel.lean ====
abbrev S32x4096x1024 : Shape := ⟨3, ![32, 4096, 1024]⟩
abbrev S131072x1024 : Shape := ⟨2, ![131072, 1024]⟩
abbrev S1x1 : Shape := ⟨2, ![1, 1]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 23
  | .vmem => 14
  | .smem => 0
  | _ => 0

abbrev bufTy : (tb : Table) → Fin (tcTables nBuf tb) → BufTy
  | .hbm, ⟨0, _⟩ => ⟨S32x4096x1024, .f32⟩
  | .hbm, ⟨1, _⟩ => ⟨S131072x1024, .f32⟩
  | .hbm, ⟨2, _⟩ => ⟨S1x1, .f32⟩
  | .hbm, ⟨3, _⟩ => ⟨S_, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S1x1, .i1⟩
  | .hbm, ⟨18, _⟩ => ⟨S_, .f32⟩
  | .hbm, ⟨19, _⟩ => ⟨S1x1, .f32⟩
  | .hbm, ⟨20, _⟩ => ⟨S1x1, .f32⟩
  | .hbm, ⟨21, _⟩ => ⟨S131072x1024, .f32⟩
  | .hbm, ⟨22, _⟩ => ⟨S32x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1, .f32⟩
  | .local _ .vmem, ⟨3, _⟩ => ⟨S1024x1024, .f32⟩
  | .local _ .vmem, ⟨4, _⟩ => ⟨S1024x1024, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1024x1024, .f32⟩
  | .local _ .vmem, ⟨9, _⟩ => ⟨S1024x1024, .f32⟩
  | .local _ .vmem, ⟨10, _⟩ => ⟨S1x1, .f32⟩
  | .local _ .vmem, ⟨11, _⟩ => ⟨S1x1, .f32⟩
  | .local _ .vmem, ⟨12, _⟩ => ⟨S1024x1024, .f32⟩
  | .local _ .vmem, ⟨13, _⟩ => ⟨S1024x1024, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg3_1 : Ref sig .tc := ⟨.vmem, 13, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S32x4096x1024_S131072x1024 : S32x4096x1024.ShapeCasts S131072x1024
  inb_S1x1_S1x1_0_0 : ∀ a, (![0, 0] : Fin 2 → Nat) a + S1x1.size a ≤ S1x1.size a
  h_S1x1 : 0 < S1x1.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  bcast_S_S1x1 : S_.BroadcastsInDim S1x1 (![] : Fin 0 → Fin S1x1.rank)
  inpos_S1x1_p0_0 : ∀ a, (![0, 0] : Fin 2 → Nat) a < S1x1.size a
  natLt_1_32 : 1 < 32
  shapeCasts_S131072x1024_S32x4096x1024 : S131072x1024.ShapeCasts S32x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S131072x1024.size a
  hwx1_0 : ∀ i : grid1.Coords, EltTy.bits .f32 = 32 ∨ (Rect.block (s := S131072x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S131072x1024.size a
  hwx2_0 : ∀ i : grid2.Coords, EltTy.bits .f32 = 32 ∨ (Rect.block (s := S131072x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S131072x1024.size a
  hwx2_3 : ∀ i : grid2.Coords, EltTy.bits .f32 = 32 ∨ (Rect.block (s := S131072x1024) S1024x1024.size (cc2_transform_3 i) (hinb2_3 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32x4096x1024 : Shape := ⟨3, ![32, 4096, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S32x4096x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x4096x1024, .f32⟩
  | .hbm, ⟨9, _⟩ => ⟨S32x4096x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x4096x1024, .f32⟩
  | .hbm, ⟨14, _⟩ => ⟨S32x4096x1024, .f32⟩
  | .hbm, ⟨15, _⟩ => ⟨S_, .f32⟩
  | .hbm, ⟨16, _⟩ => ⟨S32x4096x1024, .f32⟩
  | .hbm, ⟨17, _⟩ => ⟨S32x4096x1024, .f32⟩
  | .hbm, ⟨18, _⟩ => ⟨S_, .f32⟩
  | .hbm, ⟨19, _⟩ => ⟨S32x4096x1024, .f32⟩
  | .hbm, ⟨20, _⟩ => ⟨S32x4096x1024, .i1⟩
  | .hbm, ⟨21, _⟩ => ⟨S32x4096x1024, .f32⟩
  | .hbm, ⟨22, _⟩ => ⟨S32x4096x1024, .f32⟩
  | .hbm, ⟨23, _⟩ => ⟨S32x4096x1024, .f32⟩
  | .hbm, ⟨24, _⟩ => ⟨S_, .f32⟩
  | .hbm, ⟨25, _⟩ => ⟨S32x4096x1024, .f32⟩
  | .hbm, ⟨26, _⟩ => ⟨S32x4096x1024, .i1⟩
  | .hbm, ⟨27, _⟩ => ⟨S32x4096x1024, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S32x4096x1024, .f32⟩
  | .hbm, ⟨33, _⟩ => ⟨S32x4096x1024, .f32⟩
  | .hbm, ⟨34, _⟩ => ⟨S_, .f32⟩
  | .hbm, ⟨35, _⟩ => ⟨S_, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S_, .f32⟩
  | .hbm, ⟨40, _⟩ => ⟨S_, .i32⟩
  | .hbm, ⟨41, _⟩ => ⟨S_, .i1⟩
  | .hbm, ⟨42, _⟩ => ⟨S32x4096x1024, .f32⟩
  | .hbm, ⟨43, _⟩ => ⟨S32x4096x1024, .f32⟩
  | .hbm, ⟨44, _⟩ => ⟨S32x4096x1024, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_cst_3 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_call1_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_v7 : Ref sig .tc := ⟨.hbm, 23, rfl⟩
abbrev main_cst_4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_cst_5 : Ref sig .tc := ⟨.hbm, 30, rfl⟩
abbrev main_call2_v0 : Ref sig .tc := ⟨.hbm, 31, rfl⟩
abbrev main_call2_v1 : Ref sig .tc := ⟨.hbm, 32, rfl⟩
abbrev main_v12 : Ref sig .tc := ⟨.hbm, 33, rfl⟩
abbrev main_cst_6 : Ref sig .tc := ⟨.hbm, 34, rfl⟩
abbrev main_v13 : Ref sig .tc := ⟨.hbm, 35, rfl⟩
abbrev main_c_7 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_8 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩

abbrev nD : Nat := 1
abbrev τ : Topo := Topo.v7x

variable {F : FTy → Type} [FloatOps F]

class Facts₀ : Prop where
  reducesTo_S32x4096x1024_S_d0_1_2 : S32x4096x1024.ReducesTo [0, 1, 2] S_
  h_S_ : 0 < S_.numel
  bcast_S_S32x4096x1024 : S_.BroadcastsInDim S32x4096x1024 (![] : Fin 0 → Fin S32x4096x1024.rank)
  natLt_1_32 : 1 < 32

variable [Facts₀]

class Facts : Prop extends Facts₀ where

variable [Facts]
-- ==== Proof.Spec.lean ====
/-
  The specification of the ternary activation, on the extended reals.

  For an array x of 32·4096·1024 extended reals:
    S  = Σ |x i|                              the total magnitude,
    δ  = 0.7 · (S / 2^27)                      the threshold (0.7 and 2^27 the f32 words the programs write),
    t i = trunc (clip (x i / δ, -1, 1))        the ternary code of an entry (trunc as ceil below zero, floor otherwise),
    M  = Σ |x i| over the entries coded nonzero,   n = the number of such entries,
    result i = (M / max n 1) · t i  when n > 0,  and  t i  when n = 0.
  Two forms are stated: the one a single pass over the whole array gives (`whole`), and the one three
  tiled passes give, each running over 128 tiles of 1024 × 1024 entries (`tiled`), where the threshold is
  (0.7 · S) / 2^27, the count is a sum of ones, and the scale is chosen before the product.
-/
import Idealize.ShloMosaic.PureOps.Ideal.Laws
import Idealize.ShloMosaic.Lib.ValueIdx

noncomputable section

namespace Cert.Tern

open Idealize.ShloMosaic Idealize.ShloMosaic.ValueIdx

/-- The index type of the [32, 4096, 1024] array. -/
abbrev X3 : Type := (⟨3, ![32, 4096, 1024]⟩ : Shape).Idx

/-- The f32 words the programs write: 0, 1, -1, 0.7 (rounded to f32) and 2^27. -/
abbrev w0 : EReal := Ideal.ofBits .f32 0x00000000#32
abbrev w1 : EReal := Ideal.ofBits .f32 0x3F800000#32
abbrev wm1 : EReal := Ideal.ofBits .f32 0xBF800000#32
abbrev w07 : EReal := Ideal.ofBits .f32 0x3F333333#32
abbrev wN : EReal := Ideal.ofBits .f32 0x4D000000#32

/-- The magnitude |a|. -/
def mag (a : EReal) : EReal := max a (-a)

/-- a / δ clipped to [-1, 1]. -/
def clip (δ a : EReal) : EReal := min w1 (max wm1 (Ideal.div a δ))

/-- The ternary code of a at threshold δ: the clipped quotient rounded toward zero. -/
def tern (δ a : EReal) : EReal :=
  Scalar.select (Ideal.cmp .olt (clip δ a) w0) (Ideal.liftRound Int.ceil (clip δ a)) (Ideal.liftRound Int.floor (clip δ a))

/-- The bit "a is coded nonzero". -/
def nz (δ a : EReal) : BitVec 1 := Ideal.cmp .one (tern δ a) w0

/-- |a| where a is coded nonzero, zero elsewhere. -/
def kept (δ a : EReal) : EReal := Scalar.select (nz δ a) (mag a) w0

/-- One where a is coded nonzero, zero elsewhere, as the real a signed 32-bit word denotes. -/
def unit (δ a : EReal) : EReal := ((((nz δ a).setWidth 32).toInt : ℝ) : EReal)

/-! ## One pass over the whole array -/

def wholeSum (x : X3 → EReal) : EReal := w0 + ∑ i : X3, mag (x i)
def wholeDelta (x : X3 → EReal) : EReal := w07 * Ideal.div (wholeSum x) wN
def wholeKept (x : X3 → EReal) : EReal := w0 + ∑ i : X3, kept (wholeDelta x) (x i)
/-- The count as the host takes it: a sum of 32-bit words from the zero word. -/
def wholeCount (x : X3 → EReal) : BitVec 32 :=
  (Finset.univ : Finset X3).fold IntOp.addi 0#32 (fun i => (nz (wholeDelta x) (x i)).setWidth 32)
def whole (x : X3 → EReal) : X3 → EReal := fun i =>
  Scalar.select (IntOp.cmpi .sgt (wholeCount x) 0#32)
    (Ideal.div (wholeKept x) (((IntOp.maxsi (wholeCount x) 1#32).toInt : ℝ) : EReal) * tern (wholeDelta x) (x i))
    (tern (wholeDelta x) (x i))

/-! ## Three tiled passes -/

/-- The entry of the array at row p, lane q of tile t: rows are numbered 4096 a + b through the leading two axes. -/
def pt (t : Fin 128) (p q : Fin 1024) : X3 :=
  ix3 (⟨(t.val * 1024 + p.val) / 4096, by have := t.isLt; have := p.isLt; omega⟩ : Fin 32)
    (⟨(t.val * 1024 + p.val) % 4096, Nat.mod_lt _ (by decide)⟩ : Fin 4096) q

/-- A sum over the tiles in order, then rows, then lanes. -/
def tileSum (g : X3 → EReal) : EReal := ∑ t : Fin 128, ∑ p : Fin 1024, ∑ q : Fin 1024, g (pt t p q)

def tiledSum (x : X3 → EReal) : EReal := w0 + tileSum fun i => mag (x i)
def tiledDelta (x : X3 → EReal) : EReal := Ideal.div (w07 * tiledSum x) wN
def tiledKept (x : X3 → EReal) : EReal := w0 + tileSum fun i => kept (tiledDelta x) (x i)
def tiledCount (x : X3 → EReal) : EReal := w0 + tileSum fun i => unit (tiledDelta x) (x i)
def tiledScale (x : X3 → EReal) : EReal :=
  Scalar.select (Ideal.cmp .ogt (tiledCount x) w0) (Ideal.div (tiledKept x) (max (tiledCount x) w1)) w1
def tiled (x : X3 → EReal) : X3 → EReal := fun i => tiledScale x * tern (tiledDelta x) (x i)

end Cert.Tern

end
-- ==== Proof.KerRun.lean ====
/-
  The tiled program's run, with its result named.

  The program is three passes over the array, each a grid of 128 tiles, among short stretches of scalar host
  arithmetic. Every weakly fair execution terminates without a fault, and at the end every buffer that outlives
  the passes holds the contents the segments leave, folded in order from the launch memory: a host stretch applies
  its operations, a pass replaces its arrays by what its write-backs leave. Here the fold is read at two buffers:
  the result, and the argument (which nothing writes).
-/
import proofs.«154034_j75393855914347_1_alg».proof.Defs
import proofs.«154034_j75393855914347_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the fold's contents and the
    argument as launched. -/
theorem run_fold : θ_run defs (onTc (τ := τ) (main (F := F))) ⟨m, fun _ => 0, ρ⟩ (fun r => ∀ c : Dev nD,
      r.2.mem ((c.tc : Thread nD τ).loc main_v15) = W8 m ρ c (Proc.devRef .tc main_v15)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v15 (by decide)), (h c _ (mem_uc main_arg0 (by decide))).trans (W8_main_arg0 m ρ c)⟩)

end Cert.KernelIdeal.Hand

end
-- ==== Proof.KerGlue.lean ====
/-
  The scalar host arithmetic between the three passes.

  The tiled program reshapes its argument to 131072 rows of 1024 lanes, runs a first pass that leaves the total magnitude in a
  [1,1] array, computes the threshold from it on the host (0.7 times the total, over 2^27), runs a second pass that leaves the
  kept magnitude and the count in two [1,1] arrays, computes the scale from them on the host (the kept magnitude over the
  count when the count is positive, one otherwise), runs a third pass that writes the scaled codes, and reshapes the result
  back. Between passes a buffer holds what the host operations wrote to it, an array of a pass what the pass's write-backs
  leave, and every other buffer what it held before. Here those contents are read at the buffers each pass takes in, and,
  at the extended reals, at the one element of each [1,1] array.
-/
import proofs.«154034_j75393855914347_1_alg».proof.Defs
import proofs.«154034_j75393855914347_1_alg».proof.Proof.Gen.KernelIdeal.Frame
import proofs.«154034_j75393855914347_1_alg».proof.Proof.Spec
import Idealize.ShloMosaic.Lib.StableHlo.Run
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem
open Idealize.ShloMosaic.Pipeline (Dat)

variable {F : FTy → Type} [FloatOps F]

variable (m : (ℓ : Loc nD τ sig) → Buf (Elt F) ℓ) (ρ : Dev nD → PrngReg) (c : Dev nD)

/-! ## The [1,1] arrays the passes leave, and the third pass's result, at their contents' types -/

/-- A rank-0 array spread over the [1,1] shape. -/
abbrev spread11 {α : Type} (v : S_.Idx → α) : S1x1.Idx → α := broadcastInDim S1x1 ![] bcast_S_S1x1 v

/-- What the first pass leaves in its output array: the total magnitude. -/
abbrev sumArr : FVec F S1x1 .f32 := (dat0 (V1 m ρ) c).arrAt 1 cfg0.N
/-- What the second pass leaves in its first output array: the kept magnitude. -/
abbrev keptArr : FVec F S1x1 .f32 := (dat1 (V3 m ρ) c).arrAt 2 cfg1.N
/-- What the second pass leaves in its second output array: the count. -/
abbrev countArr : FVec F S1x1 .f32 := (dat1 (V3 m ρ) c).arrAt 3 cfg1.N
/-- What the third pass leaves in its output array. -/
abbrev outArr : FVec F S131072x1024 .f32 := (dat2 (V6 m ρ) c).arrAt 3 cfg2.N

/-! ## Before the first pass -/

/-- The first pass's input is the argument, reshaped. -/
theorem v1_v0 : V1 m ρ c main_v0
    = shapeCast S131072x1024 (m ((c : Thread nD τ).loc main_arg0)) shapeCasts_S32x4096x1024_S131072x1024 := by
  show StableHlo.after hostOps0 (W0 m ρ c) (Proc.devRef .tc main_v0) = _
  after_results
  rfl

/-! ## Between the first pass and the second -/

/-- The reshaped argument is an input of the first pass and no host operation writes it. -/
theorem v3_v0 : V3 m ρ c main_v0 = V1 m ρ c main_v0 := by
  show StableHlo.after hostOps1 (W2 m ρ c) (Proc.devRef .tc main_v0) = _
  after_results
  exact (W2_arr m ρ c 0).trans (((dat0 (V1 m ρ) c).arrAt_in 0 rfl _).trans (A_eq0 (V1 m ρ) c 0))

/-- The threshold: 0.7 times the first pass's total, over 2^27. -/
theorem v3_v5 : V3 m ρ c main_v5
    = Host.divf (mulf (spread11 (constant S_ .f32 0x3F333333#32)) (sumArr m ρ c)) (spread11 (constant S_ .f32 0x4D000000#32)) := by
  show StableHlo.after hostOps1 (W2 m ρ c) (Proc.devRef .tc main_v5) = _
  after_results
  rw [show W2 m ρ c (Proc.devRef .tc main_v1) = (dat0 (V1 m ρ) c).arrAt 1 cfg0.N from W2_arr m ρ c 1]

/-! ## Between the second pass and the third -/

/-- The reshaped argument is an input of the second pass and no host operation writes it. -/
theorem v6_v0 : V6 m ρ c main_v0 = V1 m ρ c main_v0 := by
  show StableHlo.after hostOps2_1 (StableHlo.after hostOps2 (W4 m ρ c)) (Proc.devRef .tc main_v0) = _
  simp only [hostOps2_1, StableHlo.TRef.ternary]
  after_results
  exact (W4_arr m ρ c 0).trans (((dat1 (V3 m ρ) c).arrAt_in 0 rfl _).trans ((A_eq1 (V3 m ρ) c 0).trans (v3_v0 m ρ c)))

/-- So is the threshold. -/
theorem v6_v5 : V6 m ρ c main_v5 = V3 m ρ c main_v5 := by
  show StableHlo.after hostOps2_1 (StableHlo.after hostOps2 (W4 m ρ c)) (Proc.devRef .tc main_v5) = _
  simp only [hostOps2_1, StableHlo.TRef.ternary]
  after_results
  exact (W4_arr m ρ c 1).trans (((dat1 (V3 m ρ) c).arrAt_in 1 rfl _).trans (A_eq1 (V3 m ρ) c 1))

/-- The scale: the kept magnitude over the count (at least one) where the count is positive, one otherwise. -/
theorem v6_v13 : V6 m ρ c main_v13
    = select (cmpf .ogt (countArr m ρ c) (spread11 (constant S_ .f32 0x00000000#32)))
        (Host.divf (keptArr m ρ c) (maximumf (countArr m ρ c) (spread11 (constant S_ .f32 0x3F800000#32))))
        (spread11 (constant S_ .f32 0x3F800000#32)) := by
  show StableHlo.after hostOps2_1 (StableHlo.after hostOps2 (W4 m ρ c)) (Proc.devRef .tc main_v13) = _
  simp only [hostOps2_1, StableHlo.TRef.ternary]
  after_results
  rw [show W4 m ρ c (Proc.devRef .tc main_v6_0) = (dat1 (V3 m ρ) c).arrAt 2 cfg1.N from W4_arr m ρ c 2,
    show W4 m ρ c (Proc.devRef .tc main_v6_1) = (dat1 (V3 m ρ) c).arrAt 3 cfg1.N from W4_arr m ρ c 3]
  rfl

/-! ## After the third pass -/

/-- The result is the third pass's output, reshaped back. -/
theorem w8_v15 : W8 m ρ c (Proc.devRef .tc main_v15)
    = shapeCast S32x4096x1024 (outArr m ρ c) shapeCasts_S131072x1024_S32x4096x1024 := by
  show StableHlo.after hostOps3 (W7 m ρ c) (Proc.devRef .tc main_v15) = _
  after_results
  rw [show W7 m ρ c (Proc.devRef .tc main_v14) = (dat2 (V6 m ρ) c).arrAt 3 cfg2.N from W7_arr m ρ c 3]
  rfl

/-! ## At the extended reals, at the one element of a [1,1] array -/

section AtIdeal

open Cert.Tern

/-- The one element of a [1,1] array of extended reals. -/
def at00 (v : S1x1.Idx → EReal) : EReal := v (ix2 0 0)

/-- A rank-0 array spread over the [1,1] shape reads its one element. -/
theorem spread11_apply {α : Type} (v : S_.Idx → α) (j : S1x1.Idx) : spread11 v j = v ix0 :=
  broadcastInDim_scalar_apply bcast_S_S1x1 v j

/-- The host's threshold arithmetic on any [1,1] array, at its one element. -/
theorem delta_at (T : FVec Ideal S1x1 .f32) :
    at00 (Host.divf (mulf (spread11 (constant (F := Ideal) S_ .f32 0x3F333333#32)) T) (spread11 (constant (F := Ideal) S_ .f32 0x4D000000#32)))
      = Ideal.div (w07 * at00 T) wN := by
  unfold at00
  rw [hostDivf_apply, mulf_apply, spread11_apply, spread11_apply]
  rfl

/-- The host's scale arithmetic on any two [1,1] arrays, at their one element. -/
theorem scale_at (K C : FVec Ideal S1x1 .f32) :
    at00 (select (cmpf .ogt C (spread11 (constant (F := Ideal) S_ .f32 0x00000000#32)))
        (Host.divf K (maximumf C (spread11 (constant (F := Ideal) S_ .f32 0x3F800000#32))))
        (spread11 (constant (F := Ideal) S_ .f32 0x3F800000#32)))
      = Scalar.select (Ideal.cmp .ogt (at00 C) w0) (Ideal.div (at00 K) (max (at00 C) w1)) w1 := by
  unfold at00
  rw [select_apply, cmpf_apply, hostDivf_apply, maximumf_apply, spread11_apply, spread11_apply]
  rfl

variable (m : (ℓ : Loc nD τ sig) → Buf (Elt Ideal) ℓ) (ρ : Dev nD → PrngReg) (c : Dev nD)

/-- The threshold the second and third passes take in: 0.7 times the first pass's total, over 2^27. -/
theorem v3_v5_at : at00 (V3 m ρ c main_v5) = Ideal.div (w07 * at00 (sumArr m ρ c)) wN := by
  rw [v3_v5]
  exact delta_at _

/-- The scale the third pass takes in: the kept magnitude over the count (at least one) where the count is positive,
    one otherwise. -/
theorem v6_v13_at : at00 (V6 m ρ c main_v13)
    = Scalar.select (Ideal.cmp .ogt (at00 (countArr m ρ c)) w0)
        (Ideal.div (at00 (keptArr m ρ c)) (max (at00 (countArr m ρ c)) w1)) w1 := by
  rw [v6_v13]
  exact scale_at _ _

end AtIdeal

end Cert.KernelIdeal.Hand

end
-- ==== Proof.LibTileSums.lean ====
/-
  Two facts about finite sums, general in the monoid and in the extents.

  (1) An index of a [1, a, b] array is its two free coordinates, so a sum over all indices of such an array is the double
      sum over the coordinates. (The rank-2 form is the library's; this is the form with a leading unit axis, which a
      reduction over every non-unit axis of a [1, a, b] block produces.)
  (2) A quantity accumulated over the points 0, 1, ..., n of a walk, started as zero plus the first point's share and
      increased at each later point by that point's share, is the sum of the shares of the points so far. Stated with the
      bound carried along, as a walk over the points of a grid states it.
-/
import Idealize.ShloMosaic.Lib.ValueIdx

noncomputable section

open scoped BigOperators

namespace LibTileSums

open Idealize.ShloMosaic Idealize.ShloMosaic.ValueIdx

/-- An index of a [1, a, b] array is its two free coordinates. -/
def idxEquivUnit3 {a b : Nat} : (⟨3, ![1, a, b]⟩ : Shape).Idx ≃ Fin a × Fin b where
  toFun i := (i 1, i 2)
  invFun p := ix3 (0 : Fin 1) p.1 p.2
  left_inv i := by
    funext d
    match d with
    | ⟨0, hd⟩ =>
      apply Fin.ext
      have h : (i ⟨0, hd⟩).val < 1 := (i ⟨0, hd⟩).isLt
      show (0 : Nat) = (i ⟨0, hd⟩).val
      omega
    | ⟨1, _⟩ => rfl
    | ⟨2, _⟩ => rfl
  right_inv _ := rfl

/-- So a sum over a [1, a, b] index set is the double sum over the two free coordinates. -/
theorem sum_unit3 {M : Type*} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquivUnit3 (a := a) (b := b)).symm f, Fintype.sum_prod_type]
  rfl

/-- The running total after point n: zero plus the first point's share, then one share more per point. -/
def runningSum {M : Type*} [AddCommMonoid M] {N : Nat} (B : (n : Nat) → n < N → M) : (n : Nat) → n < N → M
  | 0, h => 0 + B 0 h
  | n + 1, h => runningSum B n (Nat.lt_of_succ_lt h) + B (n + 1) h

/-- One point more: the running total so far plus that point's share. -/
theorem runningSum_succ {M : Type*} [AddCommMonoid M] {N : Nat} (B : (n : Nat) → n < N → M) (n : Nat) (h : n + 1 < N) :
    runningSum B (n + 1) h = runningSum B n (Nat.lt_of_succ_lt h) + B (n + 1) h := rfl

/-- It is the sum of the shares of the points so far. -/
theorem runningSum_eq {M : Type*} [AddCommMonoid M] {N : Nat} (B : (n : Nat) → n < N → M) :
    ∀ (n : Nat) (h : n < N), runningSum B n h = ∑ t : Fin (n + 1), B t.val (Nat.lt_of_lt_of_le t.isLt h)
  | 0, h => by
    rw [runningSum, zero_add, Fin.sum_univ_one]
    rfl
  | n + 1, h => by
    rw [runningSum, runningSum_eq B n]
    conv_rhs => rw [Fin.sum_univ_castSucc]
    rfl

end LibTileSums

end
-- ==== Proof.KerPay.lean ====
/-
  The arithmetic of the three tile bodies, read at an index, on the extended reals.

  A tile is a 1024 × 1024 block x of the array. The first pass adds Σ |x| over the tile to a running scalar; the
  second adds, for a threshold δ, Σ |x| over the entries coded nonzero to one running scalar and the number of such
  entries (a sum of ones) to another; the third writes scale · code(x) entry by entry. Each sum over a tile arrives
  as a reduction of a [1, 1024, 1024] view of the block over its two long axes, which is the double sum over rows
  and lanes.
-/
import proofs.«154034_j75393855914347_1_alg».proof.Proof.Gen.KernelIdeal.Skeleton
import proofs.«154034_j75393855914347_1_alg».proof.Proof.Spec
import proofs.«154034_j75393855914347_1_alg».proof.Proof.LibTileSums
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Cert.Tern
open Idealize.ShloMosaic Idealize.ShloMosaic.ValueIdx

/-- The double sum of a function of the entries over a tile's rows and lanes. -/
def tileOf (g : EReal → EReal) (x : Vec Ideal S1024x1024 .f32) : EReal :=
  ∑ p : Fin 1024, ∑ q : Fin 1024, g (x (ix2 p q))

/-- A reduction of the [1, 1024, 1024] view of a tile over its two long axes, read at its one element, is the double
    sum of the tile over rows and lanes. -/
theorem tile_total (v : FVec Ideal S1024x1024 .f32) (hφ : FKind.Formats .f32)
    (hacc : (0x00000000#32 : BitVec 32) = FKind.add.neutral .f32 hφ) :
    extractAt ![0, 0, 0] (shapeCast S1x1x1 (multiReduction .add [1, 2] S1
        (shapeCast S1x1024x1024 v shapeCasts_S1024x1024_S1x1024x1024) 0x00000000#32 reduces_S1x1024x1024_S1 hφ hacc)
        shapeCasts_S1_S1x1x1) inpos_S1x1x1_p0_0_0
      = ∑ p : Fin 1024, ∑ q : Fin 1024, v (ix2 p q) := by
  unfold extractAt
  rw [shapeCast_apply _ _ _ (ix1 (0 : Fin 1)) (by rw [Shape.rowMajor_val_one, Shape.rowMajor_val_three]; rfl)]
  refine (Ideal.multiReduction_add_total _ _ reduces_S1x1024x1024_S1 (fun b => by match b with | ⟨0, _⟩ => rfl) hφ hacc _).trans ?_
  rw [LibTileSums.sum_unit3]
  refine Finset.sum_congr rfl fun p _ => Finset.sum_congr rfl fun q _ => ?_
  rw [shapeCast_addUnit_apply]
  exact congrArg v (funext fun a => by match a with | ⟨0, _⟩ => rfl | ⟨1, _⟩ => rfl)

/-- The f32 words as the programs' scalar constants. -/
theorem scalar_w0 : (Scalar.ofBits .f32 0x00000000#32 : Ideal .f32) = w0 := rfl

/-- Reading a [1, 1] array at its one position. -/
theorem extractAt_unit2 {α : Type} (v : S1x1.Idx → α) (h : ∀ a, (![0, 0] : Fin 2 → Nat) a < S1x1.size a) :
    extractAt ![0, 0] v h = v (ix2 (0 : Fin 1) (0 : Fin 1)) :=
  congrArg v (funext fun a => by match a with | ⟨0, _⟩ => rfl | ⟨1, _⟩ => rfl)

/-- A tile total of a pointwise function of the entries. -/
theorem tileOf_congr (g : EReal → EReal) (x : Vec Ideal S1024x1024 .f32) (v : FVec Ideal S1024x1024 .f32)
    (h : ∀ (p q : Fin 1024), v (ix2 p q) = g (x (ix2 p q))) :
    ∑ p : Fin 1024, ∑ q : Fin 1024, v (ix2 p q) = tileOf g x :=
  Finset.sum_congr rfl fun p _ => Finset.sum_congr rfl fun q _ => h p q

/-! ## The first pass: the running total of magnitudes -/

/-- The reset value: zero. -/
theorem pay0_reset (y : S1x1.Idx) : k0_pay1 (F := Ideal) y = w0 := rfl

/-- One tile more: the running scalar plus the tile's total magnitude. -/
theorem pay0_step (x : Vec Ideal S1024x1024 .f32) (acc : Vec Ideal S1x1 .f32) (y : S1x1.Idx) :
    k0_pay2 x acc y = acc y + tileOf mag x := by
  unfold k0_pay2
  try dsimp only
  rw [addf_apply, broadcast_apply, shapeCast_self, shapeCast_self]
  refine congrArg (acc y + ·) ?_
  refine (tile_total (absf x) _ _).trans ?_
  exact tileOf_congr mag x _ fun p q => rfl

/-! ## The second pass: the kept magnitudes and the count -/

/-- The mask of a tile at threshold δ (held in a [1, 1] array d): an entry's bit says it is coded nonzero. -/
theorem pay1_mask (d : Vec Ideal S1x1 .f32) (x : Vec Ideal S1024x1024 .f32) (p q : Fin 1024) :
    k1_pay5 d x (ix2 p q) = nz (d (ix2 (0 : Fin 1) (0 : Fin 1))) (x (ix2 p q)) := by
  unfold k1_pay5 k1_pay4
  try dsimp only
  rw [shapeCast_self, extractAt_unit2]
  rfl

/-- The reset values: zero. -/
theorem pay1_reset2 (y : S1x1.Idx) : k1_pay2 (F := Ideal) y = w0 := rfl
theorem pay1_reset3 (y : S1x1.Idx) : k1_pay3 (F := Ideal) y = w0 := rfl

/-- The tile's count of entries coded nonzero, as a sum of ones. -/
theorem pay1_count (d : Vec Ideal S1x1 .f32) (x : Vec Ideal S1024x1024 .f32) :
    k1_pay6 d x = tileOf (unit (d (ix2 (0 : Fin 1) (0 : Fin 1)))) x := by
  unfold k1_pay6
  try dsimp only
  refine (tile_total (sitofp .f32 (extui 32 (k1_pay5 d x) natLt_1_32)) _ _).trans ?_
  refine tileOf_congr _ x _ fun p q => ?_
  rw [sitofp_apply, extui_apply, pay1_mask]
  rfl

/-- One tile more of kept magnitudes: the running scalar plus the tile's total of |x| over the entries coded nonzero. -/
theorem pay1_kept (d : Vec Ideal S1x1 .f32) (x : Vec Ideal S1024x1024 .f32) (acc : Vec Ideal S1x1 .f32) (y : S1x1.Idx) :
    k1_pay7 d x acc y = acc y + tileOf (kept (d (ix2 (0 : Fin 1) (0 : Fin 1)))) x := by
  unfold k1_pay7 k1_pay4
  try dsimp only
  rw [addf_apply, broadcast_apply, shapeCast_self, shapeCast_self]
  refine congrArg (acc y + ·) ?_
  refine (tile_total (select (k1_pay5 d x) (absf x) (broadcast S1024x1024 (Scalar.ofBits .f32 0x00000000#32))) _ _).trans ?_
  refine tileOf_congr _ x _ fun p q => ?_
  rw [select_apply, pay1_mask]
  rfl

/-- One tile more of the count: the running scalar plus the tile's count. -/
theorem pay1_step3 (n : Ideal .f32) (acc : Vec Ideal S1x1 .f32) (y : S1x1.Idx) : k1_pay1 n acc y = acc y + n := by
  unfold k1_pay1
  try dsimp only
  rw [addf_apply, broadcast_apply, shapeCast_self]

/-! ## The third pass: scale times code -/

theorem pay2_apply (d s : Vec Ideal S1x1 .f32) (x : Vec Ideal S1024x1024 .f32) (p q : Fin 1024) :
    k2_pay1 d s x (ix2 p q) = s (ix2 (0 : Fin 1) (0 : Fin 1)) * tern (d (ix2 (0 : Fin 1) (0 : Fin 1))) (x (ix2 p q)) := by
  unfold k2_pay1
  try dsimp only
  rw [shapeCast_self, extractAt_unit2, extractAt_unit2]
  rfl

end Cert.KernelIdeal.Hand

end
-- ==== Proof.Ker0.lean ====
/-
  The first pass: the total magnitude.

  The pass walks the 128 tiles in order. Its one output is a single scalar that stays in place across the walk: the
  first tile's body sets it to zero and adds the tile's total magnitude, every later tile's body adds its own. So
  after tile n it holds zero plus the totals of tiles 0, …, n, and what is written back after the last tile is zero plus
  the sum of all 128 tile totals.
-/
import proofs.«154034_j75393855914347_1_alg».proof.Defs
import proofs.«154034_j75393855914347_1_alg».proof.Proof.Gen.KernelIdeal.Frame
import proofs.«154034_j75393855914347_1_alg».proof.Proof.KerPay
import Idealize.ShloMosaic.Lib.Pipeline.Value
import Idealize.ShloMosaic.Lib.Tactic

set_option maxRecDepth 16384

noncomputable section

namespace Cert.KernelIdeal.Hand

open Cert.KernelIdeal Cert.KernelIdeal.Gen Cert.Tern
open Idealize.ShloMosaic Idealize.ShloMosaic.TcCoe Idealize.ShloMosaic.Tactic Idealize.ShloMosaic.ValueIdx
open Idealize.SL Idealize.SL.Sem
open Idealize.ShloMosaic.Pipeline (Dat)

theorem hz2 : (![0, 0] : Fin 2 → Nat) = fun _ => 0 := funext fun a => by fin_cases a <;> rfl

section AnyValues
variable {F : FTy → Type} [FloatOps F]

/-- A later tile's body leaves, in the scalar holding xo, the step's value of the tile x and xo. -/
theorem out0_B (c : Dev nD) (i : grid0.Coords) (a1 : Memref sig .tc .vmem S1024x1024 .f32) (h1 : a1.IsWhole)
    (a2 : Memref sig .tc .vmem S1x1 .f32) (h2 : a2.IsWhole) (hc : ¬cond0_0 i) (x : Vec F S1024x1024 .f32) (xo : Vec F S1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz2]
  simp only [View.readAt_eq_ld, h1.read_unread, h2.read_unread, View.ld_unit_zero (S := S1024x1024) hz2, View.ld_unit_zero (S := S1x1) hz2]

/-- The first tile's body stores the reset value, reads it back, and leaves the step's value of the tile and it. -/
theorem out0_A (c : Dev nD) (i : grid0.Coords) (a1 : Memref sig .tc .vmem S1024x1024 .f32) (h1 : a1.IsWhole)
    (a2 : Memref sig .tc .vmem S1x1 .f32) (h2 : a2.IsWhole) (hc : cond0_0 i) (x : Vec F S1024x1024 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) hz2, View.readCov_unit_zero (S := S1x1) _ hz2]
  simp only [View.readAt_eq_ld, h1.read_unread, View.ld_unit_zero (S := S1024x1024) hz2, View.ld_unit_zero (S := S1x1) hz2]

end AnyValues

variable (V : (c : Dev nD) → (b : Ref sig .tc) → Buf (Elt Ideal) ((c : Thread nD τ).loc b))

/-- Tile n's total magnitude (zero past the last tile: never used). -/
def share0 (c : Dev nD) (n : Nat) : EReal :=
  if h : n < cfg0.N then tileOf mag (iblk0 V c 0 ⟨n, h⟩) else 0

/-- After tile n the scalar holds zero plus the totals of tiles 0, …, n: by induction along the walk. -/
theorem outsAt0_eq (c : Dev nD) : ∀ (n : Nat) (h : n < cfg0.N) (y : S1x1.Idx),
    outsAt0 V c n h y = w0 + ∑ s ∈ Finset.range (n + 1), share0 V c s
  | 0, h, y => by
    rw [outsAt0_A V c ⟨0, h⟩ rfl, out0_A, pay0_step, pay0_reset, Finset.sum_range_one, share0, dif_pos h]
  | n + 1, h, y => by
    have hN : cfg0.N = 128 := N_0
    have hB : ¬(⟨n + 1, h⟩ : Fin cfg0.N).val % 128 = 0 := by dsimp only; omega
    rw [outsAt0_B V c ⟨n + 1, h⟩ hB, out0_B, pay0_step]
    show outsAt0 V c n _ y + _ = _
    rw [outsAt0_eq c n (Nat.lt_of_succ_lt h) y, Finset.sum_range_succ _ (n + 1), add_assoc, share0, dif_pos h]

/-- The scalar's final value: zero plus all 128 tile totals. -/
def total0 (c : Dev nD) : EReal := w0 + ∑ s ∈ Finset.range 128, share0 V c s

/-- The output's one block sits at position (0, 0) at every tile, and is one entry wide: decided over the grid. -/
theorem idx0_1 : ∀ t : Fin cfg0.N, win0_1.index t (0 : Fin 2) = 0 ∧ win0_1.index t (1 : Fin 2) = 0
    ∧ win0_1.xsize (grid0.coords t) (0 : Fin 2) = 1 ∧ win0_1.xsize (grid0.coords t) (1 : Fin 2) = 1 :=
  (by decide +kernel : ∀ t : Fin grid0.N, win0_1.index t (0 : Fin 2) = 0 ∧ win0_1.index t (1 : Fin 2) = 0
    ∧ win0_1.xsize (grid0.coords t) (0 : Fin 2) = 1 ∧ win0_1.xsize (grid0.coords t) (1 : Fin 2) = 1)

/-- The last tile. -/
def tLast0 : Fin cfg0.N := ⟨127, by rw [show cfg0.N = 128 from N_0]; decide⟩

/-- The result array of the pass ends holding that value. -/
theorem final0 (c : Dev nD) : (dat0 V c).arrAt 1 cfg0.N = fun _ => total0 V c := by
  have hN : cfg0.N = 128 := N_0
  refine (dat0 V c).arrAt_eq_of_cover 1 (fun _ => total0 V c) (fun t hf => ?_) (fun i => ?_)
  · have h127 : t.val = 127 := by have := (flush0_1 t).mp hf; have := t.isLt; omega
    funext y
    rw [View.read_apply]
    show (dat0 V c).after 1 t y = _
    rw [after0_1, outsAt0_eq, h127]
    rfl
  · refine ⟨tLast0, (flush0_1 tLast0).mpr rfl, ?_⟩
    show i ∈ ((View.whole main_v1).slice (win0_1.rect tLast0)).set
    rw [View.set_slice_whole, Rect.mem_set_unit]
    intro a
    have h0 : (i 0 : Nat) < 1 := (i 0).isLt
    have h1 : (i 1 : Nat) < 1 := (i 1).isLt
    obtain ⟨e0, e1, e2, e3⟩ := idx0_1 tLast0
    match a with
    | ⟨0, _⟩ =>
      show win0_1.index tLast0 0 * win0_1.size 0 ≤ (i 0 : Nat) ∧ (i 0 : Nat) < win0_1.index tLast0 0 * win0_1.size 0 + win0_1.xsize (grid0.coords tLast0) 0
      rw [e0, e2]; omega
    | ⟨1, _⟩ =>
      show win0_1.index tLast0 1 * win0_1.size 1 ≤ (i 1 : Nat) ∧ (i 1 : Nat) < win0_1.index tLast0 1 * win0_1.size 1 + win0_1.xsize (grid0.coords tLast0) 1
      rw [e1, e3]; omega

end Cert.KernelIdeal.Hand

end
-- ==== Proof.Ker1.lean ====
/-
  The second pass: the kept magnitudes and the count.

  The pass walks the 128 tiles in order with the threshold δ held in a [1, 1] array. Its two outputs are single scalars
  that stay in place across the walk. The first tile's body sets both to zero; every tile's body adds to the first the
  tile's total of |x| over the entries coded nonzero at δ, and to the second the tile's number of such entries (a sum of
  ones). So after tile n they hold zero plus the tiles' shares so far, and what is written back after the last tile is
  zero plus the sum of all 128 shares.
-/
import proofs.«154034_j75393855914347_1_alg».proof.Defs
import proofs.«154034_j75393855914347_1_alg».proof.Proof.Gen.KernelIdeal.Frame
import proofs.«154034_j75393855914347_1_alg».proof.Proof.KerPay
import proofs.«154034_j75393855914347_1_alg».proof.Proof.Ker0
import Idealize.ShloMosaic.Lib.Pipeline.Value
import Idealize.ShloMosaic.Lib.Tactic

set_option maxRecDepth 16384

noncomputable section

namespace Cert.KernelIdeal.Hand

open Cert.KernelIdeal Cert.KernelIdeal.Gen Cert.Tern
open Idealize.ShloMosaic Idealize.ShloMosaic.TcCoe Idealize.ShloMosaic.Tactic Idealize.ShloMosaic.ValueIdx
open Idealize.SL Idealize.SL.Sem
open Idealize.ShloMosaic.Pipeline (Dat)

section AnyValues
variable {F : FTy → Type} [FloatOps F]

/-- A later tile's body leaves, in the first scalar holding xo2, the kept step's value of the threshold d, the tile x and xo2. -/
theorem out1_B2 (c : Dev nD) (i : grid1.Coords) (a1 : Memref sig .tc .vmem S1024x1024 .f32) (h1 : a1.IsWhole)
    (a2 : Memref sig .tc .vmem S1x1 .f32) (h2 : a2.IsWhole) (a3 : Memref sig .tc .vmem S1x1 .f32) (h3 : a3.IsWhole)
    (a4 : Memref sig .tc .vmem S1x1 .f32) (h4 : a4.IsWhole) (hc : ¬cond1_0 i)
    (x : Vec F S1024x1024 .f32) (d xo2 xo3 : Vec F S1x1 .f32) :
    out1_B_2 c i a1 h1 a2 h2 a3 h3 a4 h4 hc x d xo2 xo3 = k1_pay7 d x xo2 := by
  unfold out1_B_2
  rw [View.read_writes_eq_canon _ _ _ (cover1_B_2 c i a1 h1 a2 h2 a3 h3 a4 h4 hc x d xo2 xo3)]
  unfold kernelRun1_B
  dsimp only
  rw [View.canon_unit_zero hz2]
  simp only [View.readAt_eq_ld, h1.read_unread, h2.read_unread, h3.read_unread, h4.read_unread, View.ld_unit_zero (S := S1024x1024) hz2, View.ld_unit_zero (S := S1x1) hz2]

/-- … and in the second scalar holding xo3, the count step's value of the tile's count and xo3. -/
theorem out1_B3 (c : Dev nD) (i : grid1.Coords) (a1 : Memref sig .tc .vmem S1024x1024 .f32) (h1 : a1.IsWhole)
    (a2 : Memref sig .tc .vmem S1x1 .f32) (h2 : a2.IsWhole) (a3 : Memref sig .tc .vmem S1x1 .f32) (h3 : a3.IsWhole)
    (a4 : Memref sig .tc .vmem S1x1 .f32) (h4 : a4.IsWhole) (hc : ¬cond1_0 i)
    (x : Vec F S1024x1024 .f32) (d xo2 xo3 : Vec F S1x1 .f32) :
    out1_B_3 c i a1 h1 a2 h2 a3 h3 a4 h4 hc x d xo2 xo3 = k1_pay1 (k1_pay6 d x) xo3 := by
  unfold out1_B_3
  rw [View.read_writes_eq_canon _ _ _ (cover1_B_3 c i a1 h1 a2 h2 a3 h3 a4 h4 hc x d xo2 xo3)]
  unfold kernelRun1_B
  dsimp only
  sl_unfold_words
  rw [View.canon_unit_zero hz2]
  simp only [View.readAt_eq_ld, h1.read_unread, h2.read_unread, h3.read_unread, h4.read_unread, View.ld_unit_zero (S := S1024x1024) hz2, View.ld_unit_zero (S := S1x1) hz2]

/-- The first tile's body stores the reset values, reads them back, and leaves the steps' values of them. -/
theorem out1_A2 (c : Dev nD) (i : grid1.Coords) (a1 : Memref sig .tc .vmem S1024x1024 .f32) (h1 : a1.IsWhole)
    (a2 : Memref sig .tc .vmem S1x1 .f32) (h2 : a2.IsWhole) (a3 : Memref sig .tc .vmem S1x1 .f32) (h3 : a3.IsWhole)
    (a4 : Memref sig .tc .vmem S1x1 .f32) (h4 : a4.IsWhole) (hc : cond1_0 i)
    (x : Vec F S1024x1024 .f32) (d : Vec F S1x1 .f32) :
    out1_A_2 c i a1 h1 a2 h2 a3 h3 a4 h4 hc x d = k1_pay7 d x (k1_pay2 (F := F)) := by
  unfold out1_A_2
  rw [View.read_writes_eq_canon _ _ _ (cover1_A_2 c i a1 h1 a2 h2 a3 h3 a4 h4 hc x d)]
  unfold kernelRun1_A
  dsimp only
  sl_unfold_words
  rw [View.canon_cons_unit_zero (S := S1x1) hz2, View.readCov_unit_zero (S := S1x1) _ hz2]
  simp only [View.readAt_eq_ld, h1.read_unread, h2.read_unread, View.ld_unit_zero (S := S1024x1024) hz2, View.ld_unit_zero (S := S1x1) hz2]

theorem out1_A3 (c : Dev nD) (i : grid1.Coords) (a1 : Memref sig .tc .vmem S1024x1024 .f32) (h1 : a1.IsWhole)
    (a2 : Memref sig .tc .vmem S1x1 .f32) (h2 : a2.IsWhole) (a3 : Memref sig .tc .vmem S1x1 .f32) (h3 : a3.IsWhole)
    (a4 : Memref sig .tc .vmem S1x1 .f32) (h4 : a4.IsWhole) (hc : cond1_0 i)
    (x : Vec F S1024x1024 .f32) (d : Vec F S1x1 .f32) :
    out1_A_3 c i a1 h1 a2 h2 a3 h3 a4 h4 hc x d = k1_pay1 (k1_pay6 d x) (k1_pay3 (F := F)) := by
  unfold out1_A_3
  rw [View.read_writes_eq_canon _ _ _ (cover1_A_3 c i a1 h1 a2 h2 a3 h3 a4 h4 hc x d)]
  unfold kernelRun1_A
  dsimp only
  sl_unfold_words
  rw [View.canon_cons_unit_zero (S := S1x1) hz2, View.readCov_unit_zero (S := S1x1) _ hz2]
  simp only [View.readAt_eq_ld, h1.read_unread, h2.read_unread, View.ld_unit_zero (S := S1024x1024) hz2, View.ld_unit_zero (S := S1x1) hz2]

end AnyValues

variable (V : (c : Dev nD) → (b : Ref sig .tc) → Buf (Elt Ideal) ((c : Thread nD τ).loc b))

/-- The threshold tile n's body reads (zero past the last tile: never used). -/
def thr1 (c : Dev nD) (n : Nat) : EReal :=
  if h : n < cfg1.N then (iblk1 V c 1 ⟨n, h⟩ : Vec Ideal S1x1 .f32) (ix2 (0 : Fin 1) (0 : Fin 1)) else 0

/-- Tile n's total of kept magnitudes, and its count, at the threshold its body reads. -/
def shareK (c : Dev nD) (n : Nat) : EReal :=
  if h : n < cfg1.N then tileOf (kept (thr1 V c n)) (iblk1 V c 0 ⟨n, h⟩) else 0
def shareC (c : Dev nD) (n : Nat) : EReal :=
  if h : n < cfg1.N then tileOf (unit (thr1 V c n)) (iblk1 V c 0 ⟨n, h⟩) else 0

/-- After tile n the two scalars hold zero plus the shares of tiles 0, …, n: by induction along the walk. -/
theorem outsAt1_eq (c : Dev nD) : ∀ (n : Nat) (h : n < cfg1.N) (y : S1x1.Idx),
    (outsAt1 V c n h).1 y = w0 + ∑ s ∈ Finset.range (n + 1), shareK V c s
    ∧ (outsAt1 V c n h).2 y = w0 + ∑ s ∈ Finset.range (n + 1), shareC V c s
  | 0, h, y => by
    rw [outsAt1_A V c ⟨0, h⟩ rfl]
    dsimp only
    rw [out1_A2, out1_A3, pay1_kept, pay1_step3, pay1_count, pay1_reset2, pay1_reset3, Finset.sum_range_one,
      Finset.sum_range_one, shareK, shareC, thr1, dif_pos h, dif_pos h, dif_pos h]
    exact ⟨rfl, rfl⟩
  | n + 1, h, y => by
    have hN : cfg1.N = 128 := N_1
    have hB : ¬(⟨n + 1, h⟩ : Fin cfg1.N).val % 128 = 0 := by dsimp only; omega
    obtain ⟨ih1, ih2⟩ := outsAt1_eq c n (Nat.lt_of_succ_lt h) y
    rw [outsAt1_B V c ⟨n + 1, h⟩ hB]
    dsimp only
    rw [out1_B2, out1_B3, pay1_kept, pay1_step3, pay1_count]
    constructor
    · show (outsAt1 V c n _).1 y + _ = _
      rw [ih1, Finset.sum_range_succ _ (n + 1), add_assoc, shareK, thr1, dif_pos h, dif_pos h]
    · show (outsAt1 V c n _).2 y + _ = _
      rw [ih2, Finset.sum_range_succ _ (n + 1), add_assoc, shareC, thr1, dif_pos h, dif_pos h]

/-- The scalars' final values: zero plus all 128 shares. -/
def totalK (c : Dev nD) : EReal := w0 + ∑ s ∈ Finset.range 128, shareK V c s
def totalC (c : Dev nD) : EReal := w0 + ∑ s ∈ Finset.range 128, shareC V c s

end Cert.KernelIdeal.Hand

end
-- ==== Proof.KerTiles.lean ====
/-
  Reading the tiles of the reshaped array.

  The [32, 4096, 1024] array x is handed to the passes as the [131072, 1024] array of its rows (row 4096 a + b is
  x's row (a, b)). A pass's window on it at tile t is the block of rows 1024 t, …, 1024 t + 1023, so the block read at
  (p, q) is the entry at row 1024 t + p, lane q, which is x at the entry the specification calls pt t p q. Hence the sum
  over the 128 tiles of a tile's double sum of g over its block is the specification's tiled sum of g ∘ x.
-/
import proofs.«154034_j75393855914347_1_alg».proof.Defs
import proofs.«154034_j75393855914347_1_alg».proof.Proof.Gen.KernelIdeal.Frame
import proofs.«154034_j75393855914347_1_alg».proof.Proof.KerPay
import proofs.«154034_j75393855914347_1_alg».proof.Proof.Ker0
import proofs.«154034_j75393855914347_1_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen Cert.Tern
open Idealize.ShloMosaic Idealize.ShloMosaic.TcCoe Idealize.ShloMosaic.Tactic Idealize.ShloMosaic.ValueIdx
open Idealize.SL Idealize.SL.Sem
open Idealize.ShloMosaic.Pipeline (Dat)

/-! ## Rows of the [131072, 1024] array -/

/-- The index of row 1024 t + p, lane q. -/
def rowIdx (t : Fin 128) (p q : Fin 1024) : S131072x1024.Idx :=
  ix2 (⟨t.val * 1024 + p.val, by have := t.isLt; have := p.isLt; omega⟩ : Fin 131072) q

/-- An array read at an index. -/
def entryAt {s : Shape} (A : s.Idx → EReal) (i : s.Idx) : EReal := A i

/-- The array's entry at row 1024 t + p, lane q. -/
def rowAt (A : S131072x1024.Idx → EReal) (t : Fin 128) (p q : Fin 1024) : EReal := A (rowIdx t p q)

theorem rowAt_apply (A : S131072x1024.Idx → EReal) (t : Fin 128) (p q : Fin 1024) : rowAt A t p q = A (rowIdx t p q) := rfl

/-- The one entry of a [1, 1] array. -/
def entry11 (A : S1x1.Idx → EReal) : EReal := A (ix2 (0 : Fin 1) (0 : Fin 1))

theorem entry11_apply (A : S1x1.Idx → EReal) : entry11 A = A (ix2 (0 : Fin 1) (0 : Fin 1)) := rfl

/-! ## The reshapes -/

/-- The leading coordinate of an entry of the [32, 4096, 1024] array is below 32, the middle one below 4096. -/
theorem x3i0 (i : X3) : (i 0).val < 32 := (i 0).isLt
theorem x3i1 (i : X3) : (i 1).val < 4096 := (i 1).isLt

/-- The array of rows read at row 1024 t + p, lane q is x at the entry of tile t, row p, lane q. -/
theorem reshape_row (x : X3 → EReal) (t : Fin 128) (p q : Fin 1024) :
    shapeCast S131072x1024 x shapeCasts_S32x4096x1024_S131072x1024 (rowIdx t p q) = x (pt t p q) := by
  have ht := t.isLt
  have hp := p.isLt
  refine shapeCast_apply x _ (rowIdx t p q) (pt t p q) ?_
  rw [Shape.rowMajor_val_three, Shape.rowMajor_val_two]
  show ((t.val * 1024 + p.val) / 4096 * 4096 + (t.val * 1024 + p.val) % 4096) * 1024 + q.val
    = (t.val * 1024 + p.val) * 1024 + q.val
  omega

/-- An array that is x's array of rows, read at row 1024 t + p, lane q. -/
theorem rowAt_reshape (A : S131072x1024.Idx → EReal) (x : X3 → EReal)
    (hA : A = shapeCast S131072x1024 x shapeCasts_S32x4096x1024_S131072x1024) (t : Fin 128) (p q : Fin 1024) :
    rowAt A t p q = x (pt t p q) := by
  subst hA
  exact reshape_row x t p q

/-- Back: the [32, 4096, 1024] array of an array A of rows, read at (a, b, l), is A at row 4096 a + b, lane l. -/
theorem reshape_back (A : S131072x1024.Idx → EReal) (i : X3) :
    shapeCast S32x4096x1024 A shapeCasts_S131072x1024_S32x4096x1024 i
      = A (ix2 (⟨4096 * (i 0).val + (i 1).val, by have := x3i0 i; have := x3i1 i; omega⟩ : Fin 131072) (i 2)) := by
  refine shapeCast_apply A _ i _ ?_
  rw [Shape.rowMajor_val_three, Shape.rowMajor_val_two]
  show (4096 * (i 0).val + (i 1).val) * 1024 + (i 2).val = ((i 0).val * 4096 + (i 1).val) * 1024 + (i 2).val
  omega

/-! ## The windows' index maps, over the grids -/

/-- The array's block at tile t is block (t, 0), in the first pass … -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- … and in the second; -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
/-- the threshold's is block (0, 0). -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

variable (V : (c : Dev nD) → (b : Ref sig .tc) → Buf (Elt Ideal) ((c : Thread nD τ).loc b))

/-! ## The blocks read at an index -/

/-- First pass: the array's block at tile t, read at (p, q), is the entry at row 1024 t + p, lane q. -/
theorem tile_row0 (c : Dev nD) (t : Fin cfg0.N) (t' : Fin 128) (ht : t'.val = t.val) (p q : Fin 1024) :
    iblk0 V c 0 t (ix2 p q) = rowAt (V c main_v0) t' p q := by
  obtain ⟨e0, e1⟩ := idx0_0 t
  show entryAt (s := S131072x1024) (V c main_v0) (((cfg0.win 0).blk t).view.emb (ix2 p q)) = entryAt (s := S131072x1024) (V c main_v0) (rowIdx t' p q)
  refine congrArg (entryAt (s := S131072x1024) (V c main_v0)) ?_
  funext a; apply Fin.ext
  match a with
  | ⟨0, _⟩ => show win0_0.index t (0 : Fin 2) * 1024 + 1 * p.val = t'.val * 1024 + p.val; omega
  | ⟨1, _⟩ => show win0_0.index t (1 : Fin 2) * 1024 + 1 * q.val = q.val; omega

/-- Second pass: the same. -/
theorem tile_row1 (c : Dev nD) (t : Fin cfg1.N) (t' : Fin 128) (ht : t'.val = t.val) (p q : Fin 1024) :
    iblk1 V c 0 t (ix2 p q) = rowAt (V c main_v0) t' p q := by
  obtain ⟨e0, e1⟩ := idx1_0 t
  show entryAt (s := S131072x1024) (V c main_v0) (((cfg1.win 0).blk t).view.emb (ix2 p q)) = entryAt (s := S131072x1024) (V c main_v0) (rowIdx t' p q)
  refine congrArg (entryAt (s := S131072x1024) (V c main_v0)) ?_
  funext a; apply Fin.ext
  match a with
  | ⟨0, _⟩ => show win1_0.index t (0 : Fin 2) * 1024 + 1 * p.val = t'.val * 1024 + p.val; omega
  | ⟨1, _⟩ => show win1_0.index t (1 : Fin 2) * 1024 + 1 * q.val = q.val; omega

/-- Second pass: the threshold's block at any tile is the threshold array, read at its one entry. -/
theorem thr_block1 (c : Dev nD) (t : Fin cfg1.N) : entry11 (iblk1 V c 1 t) = entry11 (V c main_v5) := by
  obtain ⟨e0, e1⟩ := idx1_1 t
  show entryAt (s := S1x1) (V c main_v5) (((cfg1.win 1).blk t).view.emb (ix2 (0 : Fin 1) (0 : Fin 1)))
    = entryAt (s := S1x1) (V c main_v5) (ix2 (0 : Fin 1) (0 : Fin 1))
  refine congrArg (entryAt (s := S1x1) (V c main_v5)) ?_
  funext a; apply Fin.ext
  match a with
  | ⟨0, _⟩ => show win1_1.index t (0 : Fin 2) * 1 + 1 * 0 = 0; omega
  | ⟨1, _⟩ => show win1_1.index t (1 : Fin 2) * 1 + 1 * 0 = 0; omega

/-! ## A tile's double sum, entry by entry of the array -/

/-- First pass: the double sum of g over tile t's block is the double sum of g over rows 1024 t, …, 1024 t + 1023. -/
theorem tileOf_iblk0 (g : EReal → EReal) (c : Dev nD) (t : Fin cfg0.N) (t' : Fin 128) (ht : t'.val = t.val) :
    tileOf g (iblk0 V c 0 t) = ∑ p : Fin 1024, ∑ q : Fin 1024, g (rowAt (V c main_v0) t' p q) := by
  unfold tileOf
  refine Finset.sum_congr rfl fun p _ => Finset.sum_congr rfl fun q _ => ?_
  exact congrArg g (tile_row0 V c t t' ht p q)

/-- Second pass: the same. -/
theorem tileOf_iblk1 (g : EReal → EReal) (c : Dev nD) (t : Fin cfg1.N) (t' : Fin 128) (ht : t'.val = t.val) :
    tileOf g (iblk1 V c 0 t) = ∑ p : Fin 1024, ∑ q : Fin 1024, g (rowAt (V c main_v0) t' p q) := by
  unfold tileOf
  refine Finset.sum_congr rfl fun p _ => Finset.sum_congr rfl fun q _ => ?_
  exact congrArg g (tile_row1 V c t t' ht p q)

/-! ## The sum over the 128 tiles is the specification's tiled sum -/

/-- First pass: when the array the pass reads is x's array of rows, the tiles' double sums of g add up to the tiled
    sum of g ∘ x. -/
theorem tiles0_eq (c : Dev nD) (x : X3 → EReal)
    (hV : (V c main_v0 : S131072x1024.Idx → EReal) = shapeCast S131072x1024 x shapeCasts_S32x4096x1024_S131072x1024)
    (g : EReal → EReal) :
    (∑ s ∈ Finset.range 128, if h : s < cfg0.N then tileOf g (iblk0 V c 0 ⟨s, h⟩) else 0) = tileSum fun i => g (x i) := by
  have hN : cfg0.N = 128 := N_0
  unfold tileSum
  rw [Finset.sum_range]
  refine Finset.sum_congr rfl fun t _ => ?_
  have ht : t.val < cfg0.N := by rw [hN]; exact t.isLt
  rw [dif_pos ht, tileOf_iblk0 V g c ⟨t.val, ht⟩ t rfl]
  refine Finset.sum_congr rfl fun p _ => Finset.sum_congr rfl fun q _ => ?_
  exact congrArg g (rowAt_reshape _ x hV t p q)

/-- Second pass: the same. -/
theorem tiles1_eq (c : Dev nD) (x : X3 → EReal)
    (hV : (V c main_v0 : S131072x1024.Idx → EReal) = shapeCast S131072x1024 x shapeCasts_S32x4096x1024_S131072x1024)
    (g : EReal → EReal) :
    (∑ s ∈ Finset.range 128, if h : s < cfg1.N then tileOf g (iblk1 V c 0 ⟨s, h⟩) else 0) = tileSum fun i => g (x i) := by
  have hN : cfg1.N = 128 := N_1
  unfold tileSum
  rw [Finset.sum_range]
  refine Finset.sum_congr rfl fun t _ => ?_
  have ht : t.val < cfg1.N := by rw [hN]; exact t.isLt
  rw [dif_pos ht, tileOf_iblk1 V g c ⟨t.val, ht⟩ t rfl]
  refine Finset.sum_congr rfl fun p _ => Finset.sum_congr rfl fun q _ => ?_
  exact congrArg g (rowAt_reshape _ x hV t p q)

/-- The first pass's result is the specification's tiled total magnitude. -/
theorem total0_eq (c : Dev nD) (x : X3 → EReal)
    (hV : (V c main_v0 : S131072x1024.Idx → EReal) = shapeCast S131072x1024 x shapeCasts_S32x4096x1024_S131072x1024) :
    total0 V c = tiledSum x := by
  unfold total0 tiledSum share0
  exact congrArg (w0 + ·) (tiles0_eq V c x hV mag)

end Cert.KernelIdeal.Hand

end
-- ==== Proof.Ker1Totals.lean ====
/-
  The second pass's two totals in the specification's form.

  Every tile's body reads the same threshold: the one entry δ of the [1, 1] threshold array. So tile n's shares are the
  double sums over the tile of |a| where a is coded nonzero at δ, and of one where a is coded nonzero at δ; added over
  the 128 tiles they are the specification's tiled sums of these two functions of the entries of x.
-/
import proofs.«154034_j75393855914347_1_alg».proof.Defs
import proofs.«154034_j75393855914347_1_alg».proof.Proof.Gen.KernelIdeal.Frame
import proofs.«154034_j75393855914347_1_alg».proof.Proof.KerPay
import proofs.«154034_j75393855914347_1_alg».proof.Proof.Ker0
import proofs.«154034_j75393855914347_1_alg».proof.Proof.Ker1
import proofs.«154034_j75393855914347_1_alg».proof.Proof.KerTiles
import Idealize.ShloMosaic.Lib.Pipeline.Value
import Idealize.ShloMosaic.Lib.Tactic

set_option maxRecDepth 16384

noncomputable section

namespace Cert.KernelIdeal.Hand

open Cert.KernelIdeal Cert.KernelIdeal.Gen Cert.Tern
open Idealize.ShloMosaic Idealize.ShloMosaic.TcCoe Idealize.ShloMosaic.Tactic Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The threshold every tile's body reads is the threshold array's one entry. -/
theorem thr1_eq (c : Dev nD) (δ : EReal) (hδ : entry11 (V c main_v5) = δ) (n : Nat) (h : n < cfg1.N) :
    thr1 V c n = δ := by
  rw [thr1, dif_pos h]
  exact (thr_block1 V c ⟨n, h⟩).trans hδ

/-- Tile s's total of kept magnitudes, at that threshold. -/
theorem shareK_eq (c : Dev nD) (δ : EReal) (hδ : entry11 (V c main_v5) = δ) (s : Nat) :
    shareK V c s = if h : s < cfg1.N then tileOf (kept δ) (iblk1 V c 0 ⟨s, h⟩) else 0 := by
  unfold shareK
  by_cases h : s < cfg1.N
  · rw [dif_pos h, dif_pos h, thr1_eq V c δ hδ s h]
  · rw [dif_neg h, dif_neg h]

/-- Tile s's count, at that threshold. -/
theorem shareC_eq (c : Dev nD) (δ : EReal) (hδ : entry11 (V c main_v5) = δ) (s : Nat) :
    shareC V c s = if h : s < cfg1.N then tileOf (unit δ) (iblk1 V c 0 ⟨s, h⟩) else 0 := by
  unfold shareC
  by_cases h : s < cfg1.N
  · rw [dif_pos h, dif_pos h, thr1_eq V c δ hδ s h]
  · rw [dif_neg h, dif_neg h]

/-- The pass's first result is zero plus the specification's tiled sum of the kept magnitudes. -/
theorem totalK_eq (c : Dev nD) (x : X3 → EReal) (δ : EReal)
    (hV : (V c main_v0 : S131072x1024.Idx → EReal) = shapeCast S131072x1024 x shapeCasts_S32x4096x1024_S131072x1024)
    (hδ : entry11 (V c main_v5) = δ) :
    totalK V c = w0 + tileSum fun i => kept δ (x i) := by
  unfold totalK
  refine congrArg (w0 + ·) ?_
  refine (Finset.sum_congr rfl fun s _ => shareK_eq V c δ hδ s).trans ?_
  exact tiles1_eq V c x hV (kept δ)

/-- The pass's second result is zero plus the specification's tiled sum of the ones. -/
theorem totalC_eq (c : Dev nD) (x : X3 → EReal) (δ : EReal)
    (hV : (V c main_v0 : S131072x1024.Idx → EReal) = shapeCast S131072x1024 x shapeCasts_S32x4096x1024_S131072x1024)
    (hδ : entry11 (V c main_v5) = δ) :
    totalC V c = w0 + tileSum fun i => unit δ (x i) := by
  unfold totalC
  refine congrArg (w0 + ·) ?_
  refine (Finset.sum_congr rfl fun s _ => shareC_eq V c δ hδ s).trans ?_
  exact tiles1_eq V c x hV (unit δ)

end Cert.KernelIdeal.Hand

end
-- ==== Proof.Ker1Final.lean ====
/-
  The second pass, concluded: what its two result arrays end holding.

  Each result is one scalar written back once, after the last tile, so each array ends holding its scalar's final
  value: zero plus the sum of all 128 tile shares.
-/
import proofs.«154034_j75393855914347_1_alg».proof.Defs
import proofs.«154034_j75393855914347_1_alg».proof.Proof.Gen.KernelIdeal.Frame
import proofs.«154034_j75393855914347_1_alg».proof.Proof.KerPay
import proofs.«154034_j75393855914347_1_alg».proof.Proof.Ker0
import proofs.«154034_j75393855914347_1_alg».proof.Proof.Ker1
import Idealize.ShloMosaic.Lib.Pipeline.Value
import Idealize.ShloMosaic.Lib.Tactic

set_option maxRecDepth 16384

noncomputable section

namespace Cert.KernelIdeal.Hand

open Cert.KernelIdeal Cert.KernelIdeal.Gen Cert.Tern
open Idealize.ShloMosaic Idealize.ShloMosaic.TcCoe Idealize.ShloMosaic.Tactic Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- There is a last tile. -/
theorem exists_last1 : ∃ t : Fin cfg1.N, t.val = 127 := ⟨⟨127, by rw [show cfg1.N = 128 from N_1]; decide⟩, rfl⟩

/-- Output 2's one block sits at position (0, 0) at every tile, and is one entry wide: decided over the grid. -/
theorem idx1_2 : ∀ t : Fin cfg1.N, win1_2.index t (0 : Fin 2) = 0 ∧ win1_2.index t (1 : Fin 2) = 0
    ∧ win1_2.xsize (grid1.coords t) (0 : Fin 2) = 1 ∧ win1_2.xsize (grid1.coords t) (1 : Fin 2) = 1 :=
  (by decide +kernel : ∀ t : Fin grid1.N, win1_2.index t (0 : Fin 2) = 0 ∧ win1_2.index t (1 : Fin 2) = 0
    ∧ win1_2.xsize (grid1.coords t) (0 : Fin 2) = 1 ∧ win1_2.xsize (grid1.coords t) (1 : Fin 2) = 1)

/-- The pass's result array 1 ends holding its scalar's final value. -/
theorem final1_2 (c : Dev nD) : (dat1 V c).arrAt 2 cfg1.N = fun _ => totalK V c := by
  have hN : cfg1.N = 128 := N_1
  refine (dat1 V c).arrAt_eq_of_cover 2 (fun _ => totalK V c) (fun t hf => ?_) (fun i => ?_)
  · have h127 : t.val = 127 := by have := (flush1_2 t).mp hf; have := t.isLt; omega
    funext y
    rw [View.read_apply]
    show (dat1 V c).after 2 t y = _
    rw [after1_2, (outsAt1_eq V c t.val t.isLt _).1, h127]
    unfold totalK
    rw [show (127 : Nat) + 1 = 128 from rfl]
    exact (cast_eq _ _).symm
  · obtain ⟨tl, htl⟩ := exists_last1
    refine ⟨tl, (flush1_2 tl).mpr (by rw [htl]), ?_⟩
    show i ∈ ((View.whole main_v6_0).slice (win1_2.rect tl)).set
    rw [View.set_slice_whole, Rect.mem_set_unit]
    intro a
    have h0 : (i 0 : Nat) < 1 := (i 0).isLt
    have h1 : (i 1 : Nat) < 1 := (i 1).isLt
    obtain ⟨e0, e1, e2, e3⟩ := idx1_2 tl
    match a with
    | ⟨0, _⟩ =>
      show win1_2.index tl 0 * win1_2.size 0 ≤ (i 0 : Nat) ∧ (i 0 : Nat) < win1_2.index tl 0 * win1_2.size 0 + win1_2.xsize (grid1.coords tl) 0
      rw [e0, e2]; omega
    | ⟨1, _⟩ =>
      show win1_2.index tl 1 * win1_2.size 1 ≤ (i 1 : Nat) ∧ (i 1 : Nat) < win1_2.index tl 1 * win1_2.size 1 + win1_2.xsize (grid1.coords tl) 1
      rw [e1, e3]; omega

/-- Output 3's one block sits at position (0, 0) at every tile, and is one entry wide: decided over the grid. -/
theorem idx1_3 : ∀ t : Fin cfg1.N, win1_3.index t (0 : Fin 2) = 0 ∧ win1_3.index t (1 : Fin 2) = 0
    ∧ win1_3.xsize (grid1.coords t) (0 : Fin 2) = 1 ∧ win1_3.xsize (grid1.coords t) (1 : Fin 2) = 1 :=
  (by decide +kernel : ∀ t : Fin grid1.N, win1_3.index t (0 : Fin 2) = 0 ∧ win1_3.index t (1 : Fin 2) = 0
    ∧ win1_3.xsize (grid1.coords t) (0 : Fin 2) = 1 ∧ win1_3.xsize (grid1.coords t) (1 : Fin 2) = 1)

/-- The pass's result array 2 ends holding its scalar's final value. -/
theorem final1_3 (c : Dev nD) : (dat1 V c).arrAt 3 cfg1.N = fun _ => totalC V c := by
  have hN : cfg1.N = 128 := N_1
  refine (dat1 V c).arrAt_eq_of_cover 3 (fun _ => totalC V c) (fun t hf => ?_) (fun i => ?_)
  · have h127 : t.val = 127 := by have := (flush1_3 t).mp hf; have := t.isLt; omega
    funext y
    rw [View.read_apply]
    show (dat1 V c).after 3 t y = _
    rw [after1_3, (outsAt1_eq V c t.val t.isLt _).2, h127]
    unfold totalC
    rw [show (127 : Nat) + 1 = 128 from rfl]
    exact (cast_eq _ _).symm
  · obtain ⟨tl, htl⟩ := exists_last1
    refine ⟨tl, (flush1_3 tl).mpr (by rw [htl]), ?_⟩
    show i ∈ ((View.whole main_v6_1).slice (win1_3.rect tl)).set
    rw [View.set_slice_whole, Rect.mem_set_unit]
    intro a
    have h0 : (i 0 : Nat) < 1 := (i 0).isLt
    have h1 : (i 1 : Nat) < 1 := (i 1).isLt
    obtain ⟨e0, e1, e2, e3⟩ := idx1_3 tl
    match a with
    | ⟨0, _⟩ =>
      show win1_3.index tl 0 * win1_3.size 0 ≤ (i 0 : Nat) ∧ (i 0 : Nat) < win1_3.index tl 0 * win1_3.size 0 + win1_3.xsize (grid1.coords tl) 0
      rw [e0, e2]; omega
    | ⟨1, _⟩ =>
      show win1_3.index tl 1 * win1_3.size 1 ≤ (i 1 : Nat) ∧ (i 1 : Nat) < win1_3.index tl 1 * win1_3.size 1 + win1_3.xsize (grid1.coords tl) 1
      rw [e1, e3]; omega

end Cert.KernelIdeal.Hand

end
-- ==== Proof.Ker2.lean ====
/-
  The third pass, read as one function of its arrays.

  The pass runs over the 128 tiles of the [131072, 1024] array; at tile t it reads the tile's 1024 × 1024 block, the
  threshold δ and the scale s (each a [1, 1] array), and writes back s · tern δ a for every entry a of the block, where
  tern δ a is a / δ clipped to [-1, 1] and rounded toward zero. The tiles cover the array once (row r lies in tile
  r / 1024), so after the pass the output array holds s · tern δ (x j) at every index j.
-/
import proofs.«154034_j75393855914347_1_alg».proof.Defs
import proofs.«154034_j75393855914347_1_alg».proof.Proof.Gen.KernelIdeal.Frame
import proofs.«154034_j75393855914347_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Tern
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The zero offsets, however spelt. -/
theorem zero_off2 : (![0, 0] : Fin 2 → Nat) = fun _ => 0 := funext fun a => by fin_cases a <;> rfl

/-- The one entry of a [1, 1] array, extracted at position (0, 0). -/
theorem extract_one (v : Vec Ideal S1x1 .f32) : extractAt ![0, 0] v inpos_S1x1_p0_0 = v (ix2 0 0) :=
  congrArg v (funext fun a => Fin.ext (by match a with | ⟨0, _⟩ => rfl | ⟨1, _⟩ => rfl))

/-- The body's arithmetic at an entry: the scale times the ternary code of the entry at the threshold. -/
theorem pay_apply (d s : Vec Ideal S1x1 .f32) (x : Vec Ideal S1024x1024 .f32) (j : S1024x1024.Idx) :
    k2_pay1 d s x j = s (ix2 0 0) * tern (d (ix2 0 0)) (x j) := by
  unfold k2_pay1
  simp only [shapeCast_self]
  rw [extract_one d, extract_one s]
  unfold tern clip
  rfl

/-- What the body leaves in the output's staging buffer: its arithmetic of the three blocks it loads whole. -/
theorem out_eq (x0 : Vec Ideal S1024x1024 .f32) (x1 x2 : Vec Ideal S1x1 .f32) : out2_3 x0 x1 x2 = k2_pay1 x1 x2 x0 := by
  unfold out2_3
  rw [View.canon_unit_zero zero_off2]
  simp only [View.ld_unit_zero (S := S1x1) zero_off2, View.ld_unit_zero (S := S1024x1024) zero_off2]

/-- The index maps over the grid: the array's and the output's block at tile t is block (t, 0); the threshold's
    and the scale's is block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The scale s times the ternary code of each entry of x at the threshold d, index by index (s and d are [1, 1] arrays). -/
def scaledTern (s d : S1x1.Idx → EReal) (x : S131072x1024.Idx → EReal) : S131072x1024.Idx → EReal :=
  fun j => s (ix2 0 0) * tern (d (ix2 0 0)) (x j)

theorem scaledTern_apply (s d : S1x1.Idx → EReal) (x : S131072x1024.Idx → EReal) (j : S131072x1024.Idx) :
    scaledTern s d x j = s (ix2 0 0) * tern (d (ix2 0 0)) (x j) := rfl

/-- The scale read at i₂ times the ternary code of x read at i₀ at the threshold read at i₁. -/
def scaledTernAt (s d : S1x1.Idx → EReal) (x : S131072x1024.Idx → EReal) (i₂ i₁ : S1x1.Idx) (i₀ : S131072x1024.Idx) : EReal :=
  s i₂ * tern (d i₁) (x i₀)

variable (V : (c : Dev nD) → (b : Ref sig .tc) → Buf (Elt Ideal) ((c : Thread nD τ).loc b))

/-- What tile t writes back is block t of that function of the arrays as the pass finds them. -/
theorem flushed_eq (c : Dev nD) (t : Fin cfg2.N) :
    (dat2 V c).flushed 3 t = ((cfg2.win 3).blk t).view.read (Elt Ideal) (scaledTern (V c main_v13) (V c main_v5) (V c main_v0)) := by
  show (cfg2.win 3).cut (grid2.coords t) ((dat2 V c).after 3 t) = _
  rw [after2_3, out_eq]
  obtain ⟨e0, e1, e2, e3, e4, e5, e6, e7⟩ := idx_facts t
  funext j
  refine (pay_apply _ _ _ _).trans ?_
  show scaledTernAt (V c main_v13) (V c main_v5) (V c main_v0) (((cfg2.win 2).blk t).view.emb (ix2 0 0))
      (((cfg2.win 1).blk t).view.emb (ix2 0 0)) (((cfg2.win 0).blk t).view.emb j)
    = scaledTernAt (V c main_v13) (V c main_v5) (V c main_v0) (ix2 0 0) (ix2 0 0) (((cfg2.win 3).blk t).view.emb j)
  have h0 : ((cfg2.win 0).blk t).view.emb j = ((cfg2.win 3).blk t).view.emb j := by
    funext a; apply Fin.ext
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 1024 + 1 * (j 1).val = win2_3.index t (1 : Fin 2) * 1024 + 1 * (j 1).val; omega
  have h1 : ((cfg2.win 1).blk t).view.emb (ix2 0 0) = ix2 0 0 := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  have h2 : ((cfg2.win 2).blk t).view.emb (ix2 0 0) = ix2 0 0 := by
    funext a; apply Fin.ext
    match a with
    | ⟨0, _⟩ => show win2_2.index t (0 : Fin 2) * 1 + 1 * 0 = 0; omega
    | ⟨1, _⟩ => show win2_2.index t (1 : Fin 2) * 1 + 1 * 0 = 0; omega
  rw [h0, h1, h2]

/-- An index of the array is in tile t's block iff each coordinate is in the block's range on its axis. -/
theorem mem_blk (t : Fin cfg2.N) (i : S131072x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v14).slice (win2_3.rect t)).set ↔ _
  rw [View.set_slice_whole, Rect.mem_set_unit]
  exact Iff.rfl

/-- Every index of the array is in the block of a tile that is written back: row r lies in tile r / 1024. -/
theorem cover (i : S131072x1024.Idx) :
    ∃ t : Fin cfg2.N, (cfg2.win 3).flush t = true ∧ i ∈ ((cfg2.win 3).blk t).view.set := by
  have hi0 : (i 0).val < 131072 := (i 0).isLt
  have hi1 : (i 1).val < 1024 := (i 1).isLt
  obtain ⟨t, ht⟩ : ∃ t : Fin cfg2.N, t.val = (i 0).val / 1024 :=
    ⟨⟨(i 0).val / 1024, by show _ < grid2.N; rw [N_2]; omega⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

/-- After the pass the output array holds the scale times the ternary code of every entry at the threshold. -/
theorem final2 (c : Dev nD) :
    (dat2 V c).arrAt 3 cfg2.N = scaledTern (V c main_v13) (V c main_v5) (V c main_v0) :=
  (dat2 V c).arrAt_eq_of_cover 3 (scaledTern (V c main_v13) (V c main_v5) (V c main_v0)) (fun t _ => flushed_eq V c t) cover

end Cert.KernelIdeal.Hand

end
-- ==== Proof.KerEntry.lean ====
/-
  The result read at an entry, through the reshape there and back.

  The third pass's output, as an array of rows, holds scale · code at every entry of x's array of rows; reshaped back
  to [32, 4096, 1024] and read at the entry i = (a, b, l) it is the array of rows at row 4096 a + b, lane l, where x's
  array of rows holds x i. So the result at i is scale · code of x i.
-/
import proofs.«154034_j75393855914347_1_alg».proof.Defs
import proofs.«154034_j75393855914347_1_alg».proof.Proof.Gen.KernelIdeal.Frame
import proofs.«154034_j75393855914347_1_alg».proof.Proof.Ker2
import proofs.«154034_j75393855914347_1_alg».proof.Proof.KerTiles
import proofs.«154034_j75393855914347_1_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen Cert.Tern
open Idealize.ShloMosaic Idealize.ShloMosaic.TcCoe Idealize.ShloMosaic.Tactic Idealize.ShloMosaic.ValueIdx
open Idealize.SL Idealize.SL.Sem
open Idealize.ShloMosaic.Pipeline (Dat)

/-- x's array of rows read at row 4096 a + b, lane l is x at (a, b, l). -/
theorem reshape_there (x : X3 → EReal) (i : X3) (h : 4096 * (i 0).val + (i 1).val < 131072) :
    shapeCast S131072x1024 x shapeCasts_S32x4096x1024_S131072x1024
      (ix2 (⟨4096 * (i 0).val + (i 1).val, h⟩ : Fin 131072) (i 2)) = x i := by
  refine shapeCast_apply x _ _ i ?_
  rw [Shape.rowMajor_val_three, Shape.rowMajor_val_two]
  show ((i 0).val * 4096 + (i 1).val) * 1024 + (i 2).val = (4096 * (i 0).val + (i 1).val) * 1024 + (i 2).val
  omega

/-- The result at an entry: the scale times the ternary code of x's entry at the threshold. -/
theorem result_entry (s d : S1x1.Idx → EReal) (x : X3 → EReal) (i : X3) :
    shapeCast S32x4096x1024 (scaledTern s d (shapeCast S131072x1024 x shapeCasts_S32x4096x1024_S131072x1024))
        shapeCasts_S131072x1024_S32x4096x1024 i
      = s (ix2 0 0) * tern (d (ix2 0 0)) (x i) := by
  rw [reshape_back, scaledTern_apply, reshape_there]

end Cert.KernelIdeal.Hand

end
-- ==== Proof.KerValue.lean ====
/-
  The tiled program's value.

  The run leaves the result buffer at the fold of the segments' effects from the launch memory. Read from the end: the
  result is the third pass's output array reshaped back; that array holds the scale times the ternary code of every entry
  of the reshaped argument at the threshold; the threshold is 0.7 times the first pass's total over 2^27, the first pass's
  total being the tiled total magnitude of the argument; the scale is the second pass's kept magnitude over its count
  (at least one) where the count is positive, and one otherwise, those two being the tiled sums of the kept magnitudes and
  of the ones at that threshold. Entry by entry this is the three-pass form of the ternary activation stated in the
  specification.
-/
import proofs.«154034_j75393855914347_1_alg».proof.Defs
import proofs.«154034_j75393855914347_1_alg».proof.Proof.Gen.KernelIdeal.Frame
import proofs.«154034_j75393855914347_1_alg».proof.Proof.Spec
import proofs.«154034_j75393855914347_1_alg».proof.Proof.KerRun
import proofs.«154034_j75393855914347_1_alg».proof.Proof.KerGlue
import proofs.«154034_j75393855914347_1_alg».proof.Proof.Ker0
import proofs.«154034_j75393855914347_1_alg».proof.Proof.Ker1
import proofs.«154034_j75393855914347_1_alg».proof.Proof.KerTiles
import proofs.«154034_j75393855914347_1_alg».proof.Proof.Ker1Totals
import proofs.«154034_j75393855914347_1_alg».proof.Proof.Ker1Final
import proofs.«154034_j75393855914347_1_alg».proof.Proof.Ker2
import proofs.«154034_j75393855914347_1_alg».proof.Proof.KerEntry

set_option maxRecDepth 16384

noncomputable section

namespace Cert.KernelIdeal.Hand

open Cert.KernelIdeal Cert.KernelIdeal.Gen Cert.Tern
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg) (c : Dev nD)

/-- The argument's launch contents, as an array of extended reals. -/
abbrev argX : X3 → EReal := m ((c : Thread nD τ).loc main_arg0)

/-- The argument's array of rows. -/
abbrev rowsX : S131072x1024.Idx → EReal := shapeCast S131072x1024 (argX m c) shapeCasts_S32x4096x1024_S131072x1024

/-! ## Every pass reads the argument's array of rows -/

theorem in0 : (V1 m ρ c main_v0 : S131072x1024.Idx → EReal) = rowsX m c := v1_v0 m ρ c
theorem in1 : (V3 m ρ c main_v0 : S131072x1024.Idx → EReal) = rowsX m c := (v3_v0 m ρ c).trans (v1_v0 m ρ c)
theorem in2 : (V6 m ρ c main_v0 : S131072x1024.Idx → EReal) = rowsX m c := (v6_v0 m ρ c).trans (v1_v0 m ρ c)

/-! ## The first pass and the threshold -/

/-- The one element of a constant [1,1] array. -/
theorem at00_const (a : EReal) : at00 (fun _ => a) = a := rfl

/-- The first pass leaves the tiled total magnitude. -/
theorem sum_value : at00 (sumArr m ρ c) = tiledSum (argX m c) := by
  have e : sumArr m ρ c = fun _ => total0 (V1 m ρ) c := final0 (V1 m ρ) c
  rw [e, at00_const]
  exact total0_eq (V1 m ρ) c (argX m c) (in0 m ρ c)

/-- The threshold the later passes take in is the specification's. -/
theorem delta_value : at00 (V3 m ρ c main_v5) = tiledDelta (argX m c) := by
  rw [v3_v5_at, sum_value]
  rfl

/-! ## The second pass and the scale -/

/-- The second pass leaves the tiled kept magnitude … -/
theorem kept_value : at00 (keptArr m ρ c) = tiledKept (argX m c) := by
  have e : keptArr m ρ c = fun _ => totalK (V3 m ρ) c := final1_2 (V3 m ρ) c
  rw [e, at00_const]
  exact totalK_eq (V3 m ρ) c (argX m c) (tiledDelta (argX m c)) (in1 m ρ c) (delta_value m ρ c)

/-- … and the tiled count. -/
theorem count_value : at00 (countArr m ρ c) = tiledCount (argX m c) := by
  have e : countArr m ρ c = fun _ => totalC (V3 m ρ) c := final1_3 (V3 m ρ) c
  rw [e, at00_const]
  exact totalC_eq (V3 m ρ) c (argX m c) (tiledDelta (argX m c)) (in1 m ρ c) (delta_value m ρ c)

/-- The scale the third pass takes in is the specification's. -/
theorem scale_value : at00 (V6 m ρ c main_v13) = tiledScale (argX m c) := by
  rw [v6_v13_at, kept_value, count_value]
  rfl

/-- The threshold reaches the third pass unchanged. -/
theorem delta_value2 : at00 (V6 m ρ c main_v5) = tiledDelta (argX m c) := by
  rw [v6_v5]
  exact delta_value m ρ c

/-! ## The third pass and the result -/

/-- The fold at the result buffer is the three-pass form of the argument's launch contents. -/
theorem result_value : W8 m ρ c (Proc.devRef .tc main_v15) = tiled (argX m c) := by
  have e : outArr m ρ c = scaledTern (V6 m ρ c main_v13) (V6 m ρ c main_v5) (V6 m ρ c main_v0) := final2 (V6 m ρ) c
  rw [w8_v15, e, in2]
  funext i
  rw [result_entry]
  show at00 (V6 m ρ c main_v13) * tern (at00 (V6 m ρ c main_v5)) (argX m c i) = _
  rw [scale_value, delta_value2]
  rfl

/-! ## The run -/

/-- From any memory with zero counters every weakly fair execution of the tiled program terminates, with its result
    buffer at the three-pass form of the argument's launch contents and the argument unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = Cert.Tern.tiled (m ((c.tc : Thread nD τ).loc main_arg0))
      ∧ r.2.mem ((c.tc : Thread nD τ).loc main_arg0) = m ((c.tc : Thread nD τ).loc main_arg0)) :=
  (θ_run defs _ _).mono (fun _ h c => ⟨(h c).1.trans (result_value m ρ c), (h c).2⟩) (run_fold m ρ)

end Cert.KernelIdeal.Hand

end
-- ==== Proof.RefRun.lean ====
/-
  The reference program as one straight line of host operations.

  The reference's entry function calls four small outlined functions (a clip to an interval, a rounding toward zero that
  itself calls a selection, and two more selections). A call means its callee's body run on the caller's buffers, so the
  entry function is the straight line of its own operations with each callee's operations written in place of the call:
  forty-four operations in all. Every weakly fair execution of a straight line terminates, and afterwards each buffer holds
  the fold of the operations' results over what the buffers held at launch.
-/
import proofs.«154034_j75393855914347_1_alg».proof.ReferenceIdeal
import proofs.«154034_j75393855914347_1_alg».proof.Proof.Gen.ReferenceIdeal
import Idealize.ShloMosaic.Lib.StableHlo.Run

noncomputable section

namespace Cert.ReferenceIdeal.Hand

open Idealize.ShloMosaic Idealize.SL.Sem Idealize.ShloMosaic.StableHlo
open Cert.ReferenceIdeal Cert.ReferenceIdeal.Gen

variable {F : FTy → Type} [FloatOps F]

/-- The entry function's operations in order, each call replaced by its callee's operations over that call's buffers:
    eleven of its own, the clip's six, the rounding's five and its selection, seven more of its own, the second
    selection's three, ten more of its own, and the last selection. -/
abbrev ops : List (HloOp τ sig (Elt F)) :=
  [ unary main_arg0 main_v0 Host.absf,
    nullary main_cst (constant S_ .f32 0x00000000#32),
    binary main_v0 main_cst main_v1 (fun x v => Host.reduceAdd x v reducesTo_S32x4096x1024_S_d0_1_2 h_S_),
    nullary main_cst_0 (constant S_ .f32 0x4D000000#32),
    binary main_v1 main_cst_0 main_v2 Host.divf,
    nullary main_cst_1 (constant S_ .f32 0x3F333333#32),
    binary main_cst_1 main_v2 main_v3 mulf,
    unary main_v3 main_v4 (broadcastInDim S32x4096x1024 ![] bcast_S_S32x4096x1024),
    binary main_arg0 main_v4 main_v5 Host.divf,
    nullary main_cst_2 (constant S_ .f32 0xBF800000#32),
    nullary main_cst_3 (constant S_ .f32 0x3F800000#32),
    unary main_cst_2 main_call0_v0 (id : (⟨S_, .f32⟩ : BufTy).Contents (Elt F) → (⟨S_, .f32⟩ : BufTy).Contents (Elt F)),
    unary main_call0_v0 main_call0_v1 (broadcastInDim S32x4096x1024 ![] bcast_S_S32x4096x1024 : (⟨S_, .f32⟩ : BufTy).Contents (Elt F) → (⟨S32x4096x1024, .f32⟩ : BufTy).Contents (Elt F)),
    binary main_call0_v1 main_v5 main_call0_v2 (maximumf : (⟨S32x4096x1024, .f32⟩ : BufTy).Contents (Elt F) → (⟨S32x4096x1024, .f32⟩ : BufTy).Contents (Elt F) → (⟨S32x4096x1024, .f32⟩ : BufTy).Contents (Elt F)),
    unary main_cst_3 main_call0_v3 (id : (⟨S_, .f32⟩ : BufTy).Contents (Elt F) → (⟨S_, .f32⟩ : BufTy).Contents (Elt F)),
    unary main_call0_v3 main_call0_v4 (broadcastInDim S32x4096x1024 ![] bcast_S_S32x4096x1024 : (⟨S_, .f32⟩ : BufTy).Contents (Elt F) → (⟨S32x4096x1024, .f32⟩ : BufTy).Contents (Elt F)),
    binary main_call0_v4 main_call0_v2 main_v6 (minimumf : (⟨S32x4096x1024, .f32⟩ : BufTy).Contents (Elt F) → (⟨S32x4096x1024, .f32⟩ : BufTy).Contents (Elt F) → (⟨S32x4096x1024, .f32⟩ : BufTy).Contents (Elt F)),
    nullary main_call1_cst (constant S_ .f32 0x00000000#32 : (⟨S_, .f32⟩ : BufTy).Contents (Elt F)),
    unary main_call1_cst main_call1_v0 (broadcastInDim S32x4096x1024 ![] bcast_S_S32x4096x1024 : (⟨S_, .f32⟩ : BufTy).Contents (Elt F) → (⟨S32x4096x1024, .f32⟩ : BufTy).Contents (Elt F)),
    binary main_v6 main_call1_v0 main_call1_v1 (cmpf .olt : (⟨S32x4096x1024, .f32⟩ : BufTy).Contents (Elt F) → (⟨S32x4096x1024, .f32⟩ : BufTy).Contents (Elt F) → (⟨S32x4096x1024, .i1⟩ : BufTy).Contents (Elt F)),
    unary main_v6 main_call1_v2 (Host.ceil : (⟨S32x4096x1024, .f32⟩ : BufTy).Contents (Elt F) → (⟨S32x4096x1024, .f32⟩ : BufTy).Contents (Elt F)),
    unary main_v6 main_call1_v3 (Host.floor : (⟨S32x4096x1024, .f32⟩ : BufTy).Contents (Elt F) → (⟨S32x4096x1024, .f32⟩ : BufTy).Contents (Elt F)),
    ternary main_call1_v1 main_call1_v2 main_call1_v3 main_v7 (select : (⟨S32x4096x1024, .i1⟩ : BufTy).Contents (Elt F) → (⟨S32x4096x1024, .f32⟩ : BufTy).Contents (Elt F) → (⟨S32x4096x1024, .f32⟩ : BufTy).Contents (Elt F) → (⟨S32x4096x1024, .f32⟩ : BufTy).Contents (Elt F)),
    nullary main_cst_4 (constant S_ .f32 0x00000000#32),
    unary main_cst_4 main_v8 (broadcastInDim S32x4096x1024 ![] bcast_S_S32x4096x1024),
    binary main_v7 main_v8 main_v9 (cmpf .une),
    unary main_v9 main_v10 (extui 32 · natLt_1_32),
    nullary main_c (constantI S_ 32 0#32),
    binary main_v10 main_c main_v11 (fun x v => Host.reduce IntOp.addi x v reducesTo_S32x4096x1024_S_d0_1_2 h_S_),
    nullary main_cst_5 (constant S_ .f32 0x00000000#32),
    unary main_cst_5 main_call2_v0 (id : (⟨S_, .f32⟩ : BufTy).Contents (Elt F) → (⟨S_, .f32⟩ : BufTy).Contents (Elt F)),
    unary main_call2_v0 main_call2_v1 (broadcastInDim S32x4096x1024 ![] bcast_S_S32x4096x1024 : (⟨S_, .f32⟩ : BufTy).Contents (Elt F) → (⟨S32x4096x1024, .f32⟩ : BufTy).Contents (Elt F)),
    ternary main_v9 main_v0 main_call2_v1 main_v12 (select : (⟨S32x4096x1024, .i1⟩ : BufTy).Contents (Elt F) → (⟨S32x4096x1024, .f32⟩ : BufTy).Contents (Elt F) → (⟨S32x4096x1024, .f32⟩ : BufTy).Contents (Elt F) → (⟨S32x4096x1024, .f32⟩ : BufTy).Contents (Elt F)),
    nullary main_cst_6 (constant S_ .f32 0x00000000#32),
    binary main_v12 main_cst_6 main_v13 (fun x v => Host.reduceAdd x v reducesTo_S32x4096x1024_S_d0_1_2 h_S_),
    nullary main_c_7 (constantI S_ 32 1#32),
    binary main_v11 main_c_7 main_v14 maxsi,
    unary main_v14 main_v15 (sitofp .f32),
    binary main_v13 main_v15 main_v16 Host.divf,
    nullary main_c_8 (constantI S_ 32 0#32),
    binary main_v11 main_c_8 main_v17 (cmpi .sgt),
    unary main_v16 main_v18 (broadcastInDim S32x4096x1024 ![] bcast_S_S32x4096x1024),
    binary main_v18 main_v7 main_v19 mulf,
    ternary main_v17 main_v19 main_v7 main_v20 ((fun p a b => select (broadcastInDim S32x4096x1024 ![] bcast_S_S32x4096x1024 p) a b) : (⟨S_, .i1⟩ : BufTy).Contents (Elt F) → (⟨S32x4096x1024, .f32⟩ : BufTy).Contents (Elt F) → (⟨S32x4096x1024, .f32⟩ : BufTy).Contents (Elt F) → (⟨S32x4096x1024, .f32⟩ : BufTy).Contents (Elt F)) ]

-- forty-four binds re-associated, one rewrite under the chain per statement
set_option maxRecDepth 2048 in
/-- The entry function is that straight line: the callees' definitions unfolded at their calls, both sides are one chain
    of steps once sequencing is re-associated; a callee's operation is stated over references that carry their contents'
    type, and at these literal references the transport to the buffer's own type and back is the identity. -/
theorem main_eq (c : Dev nD) : main (F := F) c = seq ops := by
  simp only [main, fn_clip.body, fn_trunc.body, fn_where.body, fn_where_0.body, fn_where_1.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the core only. -/
theorem ops_sub : (ops : List (HloOp τ sig (Elt F))).Forall fun op => op.bufs ⊆ tcRefs τ sig :=
  ⟨unary_bufs_sub .., nullary_bufs_sub .., binary_bufs_sub .., nullary_bufs_sub .., binary_bufs_sub .., nullary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., ternary_bufs_sub .., nullary_bufs_sub .., unary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., unary_bufs_sub .., binary_bufs_sub .., nullary_bufs_sub .., binary_bufs_sub .., unary_bufs_sub .., binary_bufs_sub .., ternary_bufs_sub ..⟩

/-- From any memory with zero counters every weakly fair execution of the entry function terminates, and every buffer
    ends at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefRead.lean ====
/-
  What the reference computes.

  The straight line of host operations is read at its result buffer as one composed term of whole-array operations over
  the argument (`vOut`), and that term, at the extended reals, is read element by element: every whole-array operation
  is the scalar operation at each element, a rank-0 array spread over the big shape is constant, a float sum over every
  axis is the initial value plus the sum over all elements, and the integer sum is the fold of word addition over all
  elements from the initial word. The outcome is the single-pass form of the ternary activation stated in the
  specification.
-/
import proofs.«154034_j75393855914347_1_alg».proof.Proof.RefRun
import proofs.«154034_j75393855914347_1_alg».proof.Proof.Spec
import Idealize.ShloMosaic.Lib.IdealHost
import Idealize.ShloMosaic.PureOps.Reduce

noncomputable section

namespace Cert.ReferenceIdeal.Hand

open Idealize.ShloMosaic Idealize.SL.Sem Idealize.ShloMosaic.StableHlo Idealize.ShloMosaic.ValueIdx
open Cert.ReferenceIdeal Cert.ReferenceIdeal.Gen

/-! ## The composed term, at any float values -/

section Term

variable {F : FTy → Type} [FloatOps F]

/-- A rank-0 array spread over the big shape. -/
abbrev spread {α : Type} (v : S_.Idx → α) : S32x4096x1024.Idx → α :=
  broadcastInDim S32x4096x1024 ![] bcast_S_S32x4096x1024 v

variable (x : FVec F S32x4096x1024 .f32)

/-- The magnitudes. -/
def vAbs : FVec F S32x4096x1024 .f32 := Host.absf x
/-- Their sum from the zero word. -/
def vSum : FVec F S_ .f32 :=
  Host.reduceAdd (vAbs x) (constant S_ .f32 0x00000000#32) reducesTo_S32x4096x1024_S_d0_1_2 h_S_
/-- The threshold: 0.7 times the mean magnitude. -/
def vDelta : FVec F S_ .f32 :=
  mulf (constant S_ .f32 0x3F333333#32) (Host.divf (vSum x) (constant S_ .f32 0x4D000000#32))
/-- The entries over the threshold, -/
def vQuot : FVec F S32x4096x1024 .f32 := Host.divf x (spread (vDelta x))
/-- clipped to [-1, 1], -/
def vClip : FVec F S32x4096x1024 .f32 :=
  minimumf (spread (id (constant S_ .f32 0x3F800000#32))) (maximumf (spread (id (constant S_ .f32 0xBF800000#32))) (vQuot x))
/-- rounded toward zero: the ternary codes. -/
def vTern : FVec F S32x4096x1024 .f32 :=
  select (cmpf .olt (vClip x) (spread (constant S_ .f32 0x00000000#32))) (Host.ceil (vClip x)) (Host.floor (vClip x))
/-- Which codes are not zero, -/
def vMask : IVec S32x4096x1024 1 := cmpf .une (vTern x) (spread (constant S_ .f32 0x00000000#32))
/-- how many, as a sum of 32-bit words, -/
def vCount : IVec S_ 32 :=
  Host.reduce IntOp.addi (extui 32 (vMask x) natLt_1_32) (constantI S_ 32 0#32) reducesTo_S32x4096x1024_S_d0_1_2 h_S_
/-- and the sum of their magnitudes. -/
def vKept : FVec F S_ .f32 :=
  Host.reduceAdd (select (vMask x) (vAbs x) (spread (id (constant S_ .f32 0x00000000#32)))) (constant S_ .f32 0x00000000#32)
    reducesTo_S32x4096x1024_S_d0_1_2 h_S_
/-- The scale: that sum over the count, the count at least one. -/
def vScale : FVec F S_ .f32 :=
  Host.divf (vKept x) (sitofp .f32 (maxsi (vCount x) (constantI S_ 32 1#32)))
/-- The result: the scaled codes when some code is not zero, the codes otherwise. -/
def vOut : FVec F S32x4096x1024 .f32 :=
  select (spread (cmpi .sgt (vCount x) (constantI S_ 32 0#32))) (mulf (spread (vScale x)) (vTern x)) (vTern x)

set_option maxRecDepth 8192 in
set_option maxHeartbeats 1600000 in
/-- The fold of the straight line at the result buffer is the composed term of the argument's contents: each operation's
    result at its own buffer is its function's value, and at any other buffer what was there. -/
theorem out_eq (V : Valuation τ sig (Elt F)) :
    after ops V (Proc.devRef .tc main_v20) = vOut (V (Proc.devRef .tc main_arg0)) := by
  after_results_simp
  rfl

set_option maxRecDepth 8192 in
/-- No operation of the line writes the argument's buffer. -/
theorem arg_eq (V : Valuation τ sig (Elt F)) :
    after ops V (Proc.devRef .tc main_arg0) = V (Proc.devRef .tc main_arg0) := by
  after_results_simp

end Term

/-! ## The composed term at the extended reals, element by element -/

section AtIdeal

open Cert.Tern

variable (x : X3 → EReal)

/-- A rank-0 array spread over the big shape reads its one element everywhere. -/
theorem spread_apply {α : Type} (v : S_.Idx → α) (i : X3) : spread v i = v ix0 :=
  broadcastInDim_scalar_apply bcast_S_S32x4096x1024 v i

/-- The magnitude of an entry. -/
theorem vAbs_apply (i : X3) : vAbs (F := Ideal) x i = mag (x i) := rfl

/-- The total magnitude: the zero word plus the sum over every entry (the result has no axis, so every entry
    reduces to its one index). -/
theorem vSum_apply (j : S_.Idx) : vSum (F := Ideal) x j = wholeSum x := by
  unfold vSum
  rw [hostReduceAdd_apply, Ideal.hostReduceAdd_total _ (fun b => b.elim0)]
  simp only [vAbs_apply]
  rfl

/-- The threshold. -/
theorem vDelta_apply (j : S_.Idx) : vDelta (F := Ideal) x j = wholeDelta x := by
  unfold vDelta
  show Ideal.ofBits .f32 0x3F333333#32 * Ideal.div (vSum (F := Ideal) x j) (Ideal.ofBits .f32 0x4D000000#32) = _
  rw [vSum_apply]
  rfl

/-- An entry over the threshold. -/
theorem vQuot_apply (i : X3) : vQuot (F := Ideal) x i = Ideal.div (x i) (wholeDelta x) := by
  unfold vQuot
  show Ideal.div (x i) (spread (vDelta (F := Ideal) x) i) = _
  rw [spread_apply, vDelta_apply]

/-- The clipped quotient. -/
theorem vClip_apply (i : X3) : vClip (F := Ideal) x i = clip (wholeDelta x) (x i) := by
  unfold vClip
  show min (spread (id (constant (F := Ideal) S_ .f32 0x3F800000#32)) i)
      (max (spread (id (constant (F := Ideal) S_ .f32 0xBF800000#32)) i) (vQuot (F := Ideal) x i)) = _
  rw [spread_apply, spread_apply, vQuot_apply]
  rfl

/-- The ternary code: the ceiling below zero, the floor otherwise. -/
theorem vTern_apply (i : X3) : vTern (F := Ideal) x i = tern (wholeDelta x) (x i) := by
  unfold vTern
  show Scalar.select (Ideal.cmp .olt (vClip (F := Ideal) x i) (spread (constant (F := Ideal) S_ .f32 0x00000000#32) i))
      (Ideal.liftRound Int.ceil (vClip (F := Ideal) x i)) (Ideal.liftRound Int.floor (vClip (F := Ideal) x i)) = _
  rw [spread_apply, vClip_apply]
  rfl

/-- The bit "coded nonzero": the unordered and the ordered "not equal" are one comparison on the extended reals. -/
theorem vMask_apply (i : X3) : vMask (F := Ideal) x i = nz (wholeDelta x) (x i) := by
  unfold vMask
  show Ideal.cmp .une (vTern (F := Ideal) x i) (spread (constant (F := Ideal) S_ .f32 0x00000000#32) i) = _
  rw [spread_apply, vTern_apply]
  rfl

/-- The count: word addition commutes and associates, so the host's ordered sum is the fold over the set of entries
    that reduce to the result's one index, which is every entry. -/
theorem vCount_apply (j : S_.Idx) : vCount (F := Ideal) x j = wholeCount x := by
  unfold vCount
  rw [Host.reduce_eq_fold, Finset.filter_true_of_mem (fun i _ => funext fun b => b.elim0)]
  have e : extui 32 (vMask (F := Ideal) x) natLt_1_32 = fun i => (nz (wholeDelta x) (x i)).setWidth 32 :=
    funext fun i => by rw [extui_apply, vMask_apply]
  rw [e]
  rfl

/-- The kept magnitude: the zero word plus the sum over every entry of its magnitude where coded nonzero. -/
theorem vKept_apply (j : S_.Idx) : vKept (F := Ideal) x j = wholeKept x := by
  unfold vKept
  rw [hostReduceAdd_apply, Ideal.hostReduceAdd_total _ (fun b => b.elim0)]
  have e : ∀ i : X3, select (vMask (F := Ideal) x) (vAbs (F := Ideal) x)
      (spread (id (constant (F := Ideal) S_ .f32 0x00000000#32))) i = kept (wholeDelta x) (x i) := fun i => by
    rw [select_apply, vMask_apply, vAbs_apply, spread_apply]
    rfl
  simp only [e]
  rfl

/-- The scale. -/
theorem vScale_apply (j : S_.Idx) :
    vScale (F := Ideal) x j = Ideal.div (wholeKept x) (((IntOp.maxsi (wholeCount x) 1#32).toInt : ℝ) : EReal) := by
  unfold vScale
  show Ideal.div (vKept (F := Ideal) x j) (((IntOp.maxsi (vCount (F := Ideal) x j) 1#32).toInt : ℝ) : EReal) = _
  rw [vKept_apply, vCount_apply]

/-- The composed term is the specification's single-pass form, at every entry. -/
theorem vOut_apply (i : X3) : vOut (F := Ideal) x i = whole x i := by
  unfold vOut
  rw [select_apply, spread_apply, mulf_apply, spread_apply, vTern_apply, vScale_apply]
  show Scalar.select (IntOp.cmpi .sgt (vCount (F := Ideal) x ix0) 0#32) _ _ = _
  rw [vCount_apply]
  rfl

theorem vOut_eq : vOut (F := Ideal) x = whole x := funext (vOut_apply x)

end AtIdeal

/-! ## The run -/

/-- From any memory with zero counters every weakly fair execution of the reference terminates, with its result buffer at
    the single-pass form of the argument's launch contents and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = Cert.Tern.whole (m ((c.tc : Thread nD τ).loc main_arg0))
      ∧ r.2.mem ((c.tc : Thread nD τ).loc main_arg0) = m ((c.tc : Thread nD τ).loc main_arg0)) :=
  (θ_run defs _ _).mono
    (fun _ h c => ⟨(h c main_v20).trans ((out_eq _).trans (vOut_eq _)), (h c main_arg0).trans (arg_eq _)⟩)
    (run_main m ρ)

end Cert.ReferenceIdeal.Hand

end
-- ==== Proof.TileSum.lean ====
/-
  The tiles cover the array once.

  The [32, 4096, 1024] array, its two leading axes read as one axis of 32·4096 = 128·1024 rows, is cut into 128 tiles of
  1024 rows by 1024 lanes. The map (tile, row in tile, lane) ↦ entry is a bijection: row number 1024 t + p is
  4096 a + b with a = (1024 t + p) / 4096 and b = (1024 t + p) % 4096, and conversely t = (4096 a + b) / 1024,
  p = (4096 a + b) % 1024. Hence a sum taken tile by tile, row by row, lane by lane is the sum over all entries, in any
  additive commutative monoid.
-/
import proofs.«154034_j75393855914347_1_alg».proof.Proof.Spec

noncomputable section

open scoped BigOperators

namespace Cert.Tern

open Idealize.ShloMosaic Idealize.ShloMosaic.ValueIdx

/-- The leading coordinate of an entry is below 32 … -/
theorem x3_lt0 (i : X3) : (i 0).val < 32 := (i 0).isLt
/-- … the middle one below 4096 … -/
theorem x3_lt1 (i : X3) : (i 1).val < 4096 := (i 1).isLt
/-- … and the last one below 1024. -/
theorem x3_lt2 (i : X3) : (i 2).val < 1024 := (i 2).isLt

/-- The coordinates of the entry at row p, lane q of tile t. -/
theorem pt_val0 (t : Fin 128) (p q : Fin 1024) : (pt t p q 0).val = (t.val * 1024 + p.val) / 4096 := rfl
theorem pt_val1 (t : Fin 128) (p q : Fin 1024) : (pt t p q 1).val = (t.val * 1024 + p.val) % 4096 := rfl
theorem pt_2 (t : Fin 128) (p q : Fin 1024) : pt t p q 2 = q := rfl

/-- (tile, row in tile, lane) ↦ entry is a bijection onto the index set of the array. -/
def tileEquiv : Fin 128 × Fin 1024 × Fin 1024 ≃ X3 where
  toFun r := pt r.1 r.2.1 r.2.2
  invFun i :=
    (⟨(4096 * (i 0).val + (i 1).val) / 1024, by have := x3_lt0 i; have := x3_lt1 i; omega⟩,
     ⟨(4096 * (i 0).val + (i 1).val) % 1024, Nat.mod_lt _ (by norm_num)⟩,
     i 2)
  left_inv r := by
    obtain ⟨t, p, q⟩ := r
    have ht := t.isLt
    have hp := p.isLt
    refine Prod.ext (Fin.ext ?_) (Prod.ext (Fin.ext ?_) rfl)
    · show (4096 * ((t.val * 1024 + p.val) / 4096) + (t.val * 1024 + p.val) % 4096) / 1024 = t.val
      omega
    · show (4096 * ((t.val * 1024 + p.val) / 4096) + (t.val * 1024 + p.val) % 4096) % 1024 = p.val
      omega
  right_inv i := by
    have h0 := x3_lt0 i
    have h1 := x3_lt1 i
    funext d
    match d with
    | ⟨0, _⟩ =>
      apply Fin.ext
      show ((4096 * (i 0).val + (i 1).val) / 1024 * 1024 + (4096 * (i 0).val + (i 1).val) % 1024) / 4096 = (i 0).val
      omega
    | ⟨1, _⟩ =>
      apply Fin.ext
      show ((4096 * (i 0).val + (i 1).val) / 1024 * 1024 + (4096 * (i 0).val + (i 1).val) % 1024) % 4096 = (i 1).val
      omega
    | ⟨2, _⟩ => rfl

/-- A sum over tiles, rows and lanes is the sum over all entries. -/
theorem tileSum_eq_sum {M : Type*} [AddCommMonoid M] (g : X3 → M) :
    ∑ t : Fin 128, ∑ p : Fin 1024, ∑ q : Fin 1024, g (pt t p q) = ∑ i : X3, g i := by
  rw [← Equiv.sum_comp tileEquiv g, Fintype.sum_prod_type]
  refine Finset.sum_congr rfl fun t _ => ?_
  rw [Fintype.sum_prod_type]
  rfl

/-- The tiled sum of the specification is the sum over all entries. -/
theorem tileSum_eq (g : X3 → EReal) : tileSum g = ∑ i : X3, g i := tileSum_eq_sum g

end Cert.Tern

end
-- ==== Proof.TileDelta.lean ====
/-
  The constants of the specification as extended reals, and the threshold in its two spellings.

  The words 0, 1 and 2^27 denote the reals 0, 1 and 134217728. Division by the nonzero real 2^27 is multiplication by its
  reciprocal, at the infinities too, so (0.7 · S) / 2^27 = 0.7 · (S / 2^27) is associativity of the product of extended
  reals; no distributivity or cancellation enters.
-/
import proofs.«154034_j75393855914347_1_alg».proof.Proof.TileSum
import Idealize.ShloMosaic.PureOps.IdealRules

noncomputable section

open scoped BigOperators

namespace Cert.Tern

open Idealize.ShloMosaic Idealize.ShloMosaic.ValueIdx

/-- The zero word denotes 0. -/
theorem w0_eq : w0 = 0 := Ideal.ofBits_zero_f32

/-- The word of 1.0 denotes 1. -/
theorem w1_eq : w1 = 1 := IdealRules.sign_bit.ideal_onePat .f32

/-- The word 0x4D000000 denotes 2^27 = 134217728. -/
theorem wN_eq : wN = ((134217728 : ℝ) : EReal) := by
  show Ideal.ofBits .f32 0x4D000000#32 = _
  simp [Ideal.ofBits, Ideal.ieee, -EReal.coe_mul]; norm_num

/-- Dividing a product by 2^27 is multiplying one factor's quotient: (a · S) / 2^27 = a · (S / 2^27). -/
theorem div_wN_mul (a S : EReal) : Ideal.div (a * S) wN = a * Ideal.div S wN := by
  rw [wN_eq, Ideal.div_coe (by norm_num) (a * S), Ideal.div_coe (by norm_num) S, mul_assoc]

/-- The two total magnitudes agree. -/
theorem tiledSum_eq (x : X3 → EReal) : tiledSum x = wholeSum x := by
  unfold tiledSum wholeSum
  rw [tileSum_eq]

/-- The two thresholds agree. -/
theorem tiledDelta_eq (x : X3 → EReal) : tiledDelta x = wholeDelta x := by
  unfold tiledDelta wholeDelta
  rw [tiledSum_eq, div_wN_mul]

/-- The two kept magnitudes agree. -/
theorem tiledKept_eq (x : X3 → EReal) : tiledKept x = wholeKept x := by
  unfold tiledKept wholeKept
  rw [tileSum_eq, tiledDelta_eq]

end Cert.Tern

end
-- ==== Proof.TileCount.lean ====
/-
  Counting with one-bit flags, over an arbitrary finite index type.

  For flags b i ∈ {0, 1} (one-bit words) over a finite type and n the number of indices flagged 1:
    * the flag widened to 32 bits and read as a signed integer is 1 or 0, so the sum of these as extended reals is n;
    * the 32-bit words added up from the zero word give the word of n;
  and for n ≤ 2^27 (far below 2^31, so the signed reading of the word of n is n itself):
    * the signed test "word of n > 0" holds exactly when 0 < n;
    * the signed maximum of the word of n and the word of 1 reads as max n 1.
-/
import Idealize.ShloMosaic.PureOps.Ideal.Laws
import Idealize.ShloMosaic.PureOps.Reduce
import Idealize.ShloMosaic.Lib.ValueIdx

noncomputable section

open scoped BigOperators

namespace Cert.Tern

open Idealize.ShloMosaic Idealize.ShloMosaic.ValueIdx

/-- A one-bit flag widened to 32 bits is the word 1 or the word 0. -/
theorem flag_setWidth (b : BitVec 1) : b.setWidth 32 = if b = 1#1 then 1#32 else 0#32 := by
  rcases BitVec.eq_zero_or_eq_one b with rfl | rfl
  · decide
  · decide

/-- Read as a signed integer it is 1 or 0. -/
theorem flag_toInt (b : BitVec 1) : (b.setWidth 32).toInt = if b = 1#1 then 1 else 0 := by
  rcases BitVec.eq_zero_or_eq_one b with rfl | rfl
  · decide
  · decide

/-- The flags, as extended reals, sum to the number of indices flagged 1 (over any finite set of indices). -/
theorem sum_flags_finset {ι : Type*} [DecidableEq ι] (b : ι → BitVec 1) (s : Finset ι) :
    ∑ i ∈ s, ((((b i).setWidth 32).toInt : ℝ) : EReal) = (((s.filter fun i => b i = 1#1).card : ℝ) : EReal) := by
  induction s using Finset.induction_on with
  | empty => simp
  | insert a s ha ih =>
    rw [Finset.sum_insert ha, ih, Finset.filter_insert, flag_toInt]
    by_cases h : b a = 1#1
    · rw [if_pos h, if_pos h, Finset.card_insert_of_notMem (by simp [ha])]
      push_cast
      rw [add_comm]
    · rw [if_neg h, if_neg h]
      simp

/-- The same over the whole finite type. -/
theorem sum_flags {ι : Type*} [Fintype ι] [DecidableEq ι] (b : ι → BitVec 1) :
    ∑ i, ((((b i).setWidth 32).toInt : ℝ) : EReal) = (((Finset.univ.filter fun i => b i = 1#1).card : ℝ) : EReal) :=
  sum_flags_finset b Finset.univ

/-- The widened flags, added as 32-bit words from the zero word, give the word of the number of indices flagged 1. -/
theorem fold_flags_finset {ι : Type*} [DecidableEq ι] (b : ι → BitVec 1) (s : Finset ι) :
    s.fold IntOp.addi 0#32 (fun i => (b i).setWidth 32) = BitVec.ofNat 32 (s.filter fun i => b i = 1#1).card := by
  induction s using Finset.induction_on with
  | empty => simp
  | insert a s ha ih =>
    rw [Finset.fold_insert ha, ih, Finset.filter_insert, flag_setWidth]
    by_cases h : b a = 1#1
    · rw [if_pos h, if_pos h, Finset.card_insert_of_notMem (by simp [ha]), BitVec.ofNat_add, IntOp.addi, BitVec.add_comm]
    · rw [if_neg h, if_neg h, IntOp.addi, BitVec.zero_add]

/-- The signed reading of the word of n, for n ≤ 2^27. -/
theorem toInt_ofNat_small (n : ℕ) (h : n ≤ 2 ^ 27) : (BitVec.ofNat 32 n).toInt = (n : ℤ) := by
  rw [BitVec.toInt_eq_toNat_cond, BitVec.toNat_ofNat]
  have h' : n ≤ 134217728 := by simpa using h
  have : n % 2 ^ 32 = n := Nat.mod_eq_of_lt (by omega)
  rw [this, if_pos (by omega)]

/-- "The word of n is greater than the zero word", signed, is the bit of 0 < n. -/
theorem cmpi_sgt_ofNat (n : ℕ) (h : n ≤ 2 ^ 27) :
    IntOp.cmpi .sgt (BitVec.ofNat 32 n) 0#32 = if 0 < n then 1#1 else 0#1 := by
  have h0 : (0#32).toInt = 0 := by decide
  show BitVec.ofBool ((0#32).slt (BitVec.ofNat 32 n)) = _
  rw [BitVec.slt, h0, toInt_ofNat_small n h]
  by_cases hn : 0 < n
  · rw [if_pos hn, decide_eq_true (by exact_mod_cast hn)]; rfl
  · rw [if_neg hn, decide_eq_false (by omega)]; rfl

/-- The signed maximum of the word of n and the word 1 reads as max n 1. -/
theorem maxsi_ofNat_toInt (n : ℕ) (h : n ≤ 2 ^ 27) :
    (IntOp.maxsi (BitVec.ofNat 32 n) 1#32).toInt = ((max n 1 : ℕ) : ℤ) := by
  have h1 : (1#32).toInt = 1 := by decide
  unfold IntOp.maxsi
  rw [BitVec.slt, h1, toInt_ofNat_small n h]
  by_cases hn : 1 < n
  · rw [decide_eq_true (by exact_mod_cast hn), if_pos rfl, toInt_ofNat_small n h, max_eq_left (le_of_lt hn)]
  · rw [decide_eq_false (by omega), if_neg (by simp), h1, max_eq_right (by omega)]
    rfl

end Cert.Tern

end
-- ==== Proof.TileEq.lean ====
/-
  The two forms of the specification agree.

  With δ the common threshold, M the common kept magnitude and n the number of entries coded nonzero (n ≤ 2^27, the
  number of entries): the tiled count is the extended real n and the whole count is the 32-bit word of n. If n = 0 both
  forms return the ternary code itself (the tiled form as 1 · code). If n > 0 both return (M / max n 1) · code, the
  tiled form's divisor max n 1 taken among extended reals and the whole form's among signed 32-bit words.
-/
import proofs.«154034_j75393855914347_1_alg».proof.Proof.TileDelta
import proofs.«154034_j75393855914347_1_alg».proof.Proof.TileCount

noncomputable section

open scoped BigOperators

namespace Cert.Tern

open Idealize.ShloMosaic Idealize.ShloMosaic.ValueIdx

/-- The array has 2^27 entries. -/
theorem card_X3 : Fintype.card X3 = 2 ^ 27 := by
  rw [Shape.card_idx]
  simp [Shape.numel, Fin.prod_univ_succ]

/-- The number of entries coded nonzero at threshold δ. -/
def cnt (δ : EReal) (x : X3 → EReal) : ℕ := (Finset.univ.filter fun i : X3 => nz δ (x i) = 1#1).card

/-- It is at most the number of entries. -/
theorem cnt_le (δ : EReal) (x : X3 → EReal) : cnt δ x ≤ 2 ^ 27 := by
  rw [← card_X3]
  exact Finset.card_le_univ _

/-- The tiled count is the extended real n. -/
theorem tiledCount_eq (x : X3 → EReal) : tiledCount x = ((cnt (wholeDelta x) x : ℝ) : EReal) := by
  unfold tiledCount
  rw [tileSum_eq, tiledDelta_eq, w0_eq, zero_add]
  exact sum_flags fun i => nz (wholeDelta x) (x i)

/-- The whole count is the 32-bit word of n. -/
theorem wholeCount_eq (x : X3 → EReal) : wholeCount x = BitVec.ofNat 32 (cnt (wholeDelta x) x) :=
  fold_flags_finset (fun i => nz (wholeDelta x) (x i)) Finset.univ

/-- "The extended real n is greater than 0" is the bit of 0 < n. -/
theorem cmp_ogt_natCast (n : ℕ) : Ideal.cmp .ogt ((n : ℝ) : EReal) 0 = if 0 < n then 1#1 else 0#1 := by
  show BitVec.ofBool (decide ((0 : EReal) < ((n : ℝ) : EReal))) = _
  by_cases hn : 0 < n
  · have h : (0 : EReal) < ((n : ℝ) : EReal) := EReal.coe_pos.mpr (by exact_mod_cast hn)
    rw [if_pos hn, decide_eq_true h]; rfl
  · have h : ¬ (0 : EReal) < ((n : ℝ) : EReal) := by
      have h0 : n = 0 := by omega
      subst h0; simp
    rw [if_neg hn, decide_eq_false h]; rfl

/-- The maximum of the extended reals n and 1 is the extended real max n 1. -/
theorem max_natCast_one (n : ℕ) : max ((n : ℝ) : EReal) 1 = (((max n 1 : ℕ) : ℝ) : EReal) := by
  rcases le_total n 1 with h | h
  · have h' : ((n : ℝ) : EReal) ≤ 1 := by
      rw [← EReal.coe_one]; exact EReal.coe_le_coe_iff.mpr (by exact_mod_cast h)
    rw [max_eq_right h', max_eq_right h]; simp
  · have h' : (1 : EReal) ≤ ((n : ℝ) : EReal) := by
      rw [← EReal.coe_one]; exact EReal.coe_le_coe_iff.mpr (by exact_mod_cast h)
    rw [max_eq_left h', max_eq_left h]

/-- The three tiled passes compute what the single pass over the whole array computes. -/
theorem tiled_eq_whole (x : X3 → EReal) : tiled x = whole x := by
  funext i
  have hn := cnt_le (wholeDelta x) x
  unfold tiled whole tiledScale
  rw [tiledCount_eq, wholeCount_eq, tiledKept_eq, tiledDelta_eq, cmpi_sgt_ofNat _ hn, maxsi_ofNat_toInt _ hn, w0_eq, w1_eq,
    cmp_ogt_natCast, max_natCast_one, Int.cast_natCast]
  generalize cnt (wholeDelta x) x = n
  rcases Nat.eq_zero_or_pos n with rfl | hpos
  · rw [if_neg (lt_irrefl 0), select_zero, select_zero, one_mul]
  · rw [if_pos hpos, select_one, select_one]

end Cert.Tern

end
-- ==== Proof.lean ====
/-
  The certificate: a ternary activation computed in three tiled passes against its one-pass reference.

  For an array x of 32·4096·1024 numbers both programs compute
      δ = 0.7 · mean |x|,   t i = trunc (clip (x i / δ, -1, 1)),   α = (Σ |x i| over t i ≠ 0) / max (#{t i ≠ 0}) 1,
      result i = α · t i  if some t i ≠ 0,  else  t i.
  The tiled program makes three passes over 128 tiles of 1024 × 1024 entries: the first accumulates Σ |x|, the second,
  given δ, accumulates the kept magnitudes and the count (as a sum of ones), the third writes scale · t entry by entry,
  the scale chosen between the passes. The reference takes each sum over the whole array at once and counts in
  32-bit integers. On the extended reals the two agree at every input: a sum over the tiles in order is the sum over
  the array (addition is commutative and associative there, infinities included), (0.7 · S) / 2^27 = 0.7 · (S / 2^27)
  because dividing by the real 2^27 is multiplying by its inverse, the count is at most 2^27 < 2^31 so the integer sum
  does not wrap and denotes the same number as the sum of ones, and multiplying by the scale 1 when nothing is coded
  nonzero changes nothing. No finiteness of the input is used for the value; the frames hold at every input too.
  The idealization rewrote nothing, so that claim is trivial.
-/
import proofs.«154034_j75393855914347_1_alg».proof.Defs
import proofs.«154034_j75393855914347_1_alg».proof.Proof.Gen.Kernel
import proofs.«154034_j75393855914347_1_alg».proof.Proof.Gen.Kernel.Frame
import proofs.«154034_j75393855914347_1_alg».proof.Proof.Gen.KernelIdeal
import proofs.«154034_j75393855914347_1_alg».proof.Proof.Gen.KernelIdeal.Frame
import proofs.«154034_j75393855914347_1_alg».proof.Proof.Gen.ReferenceIdeal
import proofs.«154034_j75393855914347_1_alg».proof.Proof.Gen.Pre_finite_inputs
import proofs.«154034_j75393855914347_1_alg».proof.Proof.KerValue
import proofs.«154034_j75393855914347_1_alg».proof.Proof.RefRead
import proofs.«154034_j75393855914347_1_alg».proof.Proof.TileEq

noncomputable section

namespace Cert.Proof

open Idealize.ShloMosaic Idealize.SL.Sem

/-- The word-level program runs and leaves its argument as launched. -/
theorem frame_k : Cert.frame_Kernel := fun m ρ _ => Cert.Kernel.Gen.frame m ρ

/-- So does the program read on the extended reals. -/
theorem frame_ki : Cert.frame_KernelIdeal := fun m ρ _ => Cert.KernelIdeal.Gen.frame m ρ

/-- The reference runs and leaves its argument as launched: its run, with the result dropped. -/
theorem frame_ri : Cert.frame_ReferenceIdeal := fun m ρ _ =>
  (θ_run Cert.ReferenceIdeal.defs _ _).mono (fun _ h c => (h c).2) (Cert.ReferenceIdeal.Hand.run m ρ)

/-- From memories agreeing on the argument, the tiled program ends with the tiled form of the specification at its
    result and the reference with the one-pass form: one function of the argument. -/
theorem algebraic : Cert.algebraic_KernelIdeal_ReferenceIdeal := by
  intro m ρ m' ρ' _ hagree
  refine ⟨fun c => Cert.Tern.tiled (m ((c.tc : Thread Cert.KernelIdeal.nD Cert.KernelIdeal.τ).loc Cert.KernelIdeal.main_arg0)),
    Cert.KernelIdeal.Hand.run_value m ρ, ?_⟩
  refine (θ_run Cert.ReferenceIdeal.defs _ _).mono (fun _ h c => ⟨(h c).1.trans ?_, (h c).2⟩)
    (Cert.ReferenceIdeal.Hand.run m' ρ')
  rw [hagree c]
  exact (Cert.Tern.tiled_eq_whole _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
